-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .bf16⟩
  | .local _ .vmem, ⟨10, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  h_S400x64 : 0 < S400x64.numel
  shapeCasts_S400x64_S400x64 : S400x64.ShapeCasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KernelBody.Runs.lean ====
import proofs.«131716_g83657372991743_cont_sun_c4_273_6_alg».proof.Proof.Gen.Kernel.Frame
import proofs.«131716_g83657372991743_cont_sun_c4_273_6_alg».proof.Proof.Gen.Kernel.Skeleton
import Idealize.ShloMosaic.Lib.WritesUnit
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, decided over the grid -/

/-- The first branch's condition: both grid coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)
/-- The second branch's condition: the first pass. -/
abbrev cond1 (i : grid0.Coords) : Prop := k0_cond2 i = 1#1
/-- It holds at the first 25 points. -/
theorem hcond1 : ∀ t : Fin cfg0.N, cond1 (grid0.coords t) ↔ t.val < 25 :=
  (by decide +kernel : ∀ t : Fin grid0.N, cond1 (grid0.coords t) ↔ t.val < 25)
/-- The third branch's condition: the second pass. -/
abbrev cond2 (i : grid0.Coords) : Prop := k0_cond3 i = 1#1
/-- It holds at the last 25 points. -/
theorem hcond2 : ∀ t : Fin cfg0.N, cond2 (grid0.coords t) ↔ 25 ≤ t.val :=
  (by decide +kernel : ∀ t : Fin grid0.N, cond2 (grid0.coords t) ↔ 25 ≤ t.val)

/-! ## Two readings of a buffer after one store -/

/-- The zero offsets of a rank-2 buffer. -/
theorem off00 : (![0, 0] : Fin 2 → ℕ) = fun _ => 0 :=
  funext fun a => by match a with | ⟨0, _⟩ => rfl | ⟨1, _⟩ => rfl

/-- One store through the rectangle that is the whole buffer leaves its payload, whatever was there. -/
theorem read_writes_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, by
    subst h; show y ∈ (Rect.whole S).set; rw [Rect.set_whole]; exact Finset.mem_univ y⟩), View.canon_unit_zero h inb w]

/-! ## The body's three runs

At the first point the body fills the first scratch with `x·W1`, reads it back, and writes one row block of the second
scratch; at the other points of the first pass it reads the first scratch and writes its row block of the second; in
the second pass it reads the whole second scratch and writes the output block. Each run is stated with every buffer's
contents named: the inputs as they were, the scratch rows outside the point's block as they were. -/

set_option maxHeartbeats 1000000 in
/-- A point of the second pass: the output block is the third payload of the adjacency panel, the second scratch and
    the second bias; both scratches are left as found. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ off00]
    simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  isplitl [HS0]
  · iexists _; isplitr; · ipureintro; exact harg9.read_unread _
    iexact HS0
  iexists _; isplitr; · ipureintro; exact harg10.read_unread _
  iexact HS1

set_option maxHeartbeats 1000000 in
/-- A later point of the first pass: the point's row block of the second scratch is the second payload of the adjacency
    panel, the first scratch, the first bias and the second weights; its other rows, the first scratch and the output
    buffer are left as found. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (X6 : Vec F S400x64 .f32) (xs0 xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare xs0 ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare xs0 ∗ (∃ d' : Vec F S10000x64 .bf16, ⌜(∀ (y : S10000x64.Idx) (x : S400x64.Idx), (y 0).val = k0_off1 i 0 + (x 0).val → (y 1).val = (x 1).val → d' y = k0_pay2 x1 xs0 x3 x4 x) ∧ (∀ y : S10000x64.Idx, ((y 0).val < k0_off1 i 0 ∨ k0_off1 i 0 + 400 ≤ (y 0).val) → d' y = xs1 y)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap
  · iexists _; isplitr; swap; · iexact HS1
    ipureintro; rfl
  simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  ipureintro
  refine ⟨fun y x h0 h1 => ?_, fun y h => ?_⟩
  · exact View.read_writes_cons_rows_of_mem (off := k0_off1 i) (size := S400x64.size) (o := k0_off1 i 0) arg10.view (harg10.unread xs1) _ _ [] y x rfl h0 h1
  · refine (View.read_writes_cons_rows_of_not_mem (off := k0_off1 i) (size := S400x64.size) (o := k0_off1 i 0) (W := 400) arg10.view (harg10.unread xs1) _ _ [] y rfl rfl h).trans ?_
    rw [View.writes_nil]; exact congrFun (harg10.read_unread xs1) y

set_option maxHeartbeats 1000000 in
/-- The first point: the first scratch is filled with the first payload of `x` and the first weights, whatever it held;
    the rest as at a later point of the first pass, over that first scratch. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (X6 : Vec F S400x64 .f32) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ (∃ d, owns (c : Thread nD τ) arg9 fullShare d) ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare (k0_pay1 x0 x2) ∗ (∃ d' : Vec F S10000x64 .bf16, ⌜(∀ (y : S10000x64.Idx) (x : S400x64.Idx), (y 0).val = k0_off1 i 0 + (x 0).val → (y 1).val = (x 1).val → d' y = k0_pay2 x1 (k0_pay1 x0 x2) x3 x4 x) ∧ (∀ y : S10000x64.Idx, ((y 0).val < k0_off1 i 0 ∨ k0_off1 i 0 + 400 ≤ (y 0).val) → d' y = xs1 y)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    rw [read_writes_whole _ _ off00]
    simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  iexists _; isplitr; swap
  · iexists _; isplitr; swap; · iexact HS1
    ipureintro; rfl
  sl_unfold_run_names
  simp only [View.readCov_unit_zero arg9.view off00]
  simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  ipureintro
  refine ⟨fun y x h0 h1 => ?_, fun y h => ?_⟩
  · exact View.read_writes_cons_rows_of_mem (off := k0_off1 i) (size := S400x64.size) (o := k0_off1 i 0) arg10.view (harg10.unread xs1) _ _ [] y x rfl h0 h1
  · refine (View.read_writes_cons_rows_of_not_mem (off := k0_off1 i) (size := S400x64.size) (o := k0_off1 i 0) (W := 400) arg10.view (harg10.unread xs1) _ _ [] y rfl rfl h).trans ?_
    rw [View.writes_nil]; exact congrFun (harg10.read_unread xs1) y

end Cert.Kernel.Body

end
-- ==== Proof.KernelBody.Data.lean ====
import proofs.«131716_g83657372991743_cont_sun_c4_273_6_alg».proof.Proof.KernelBody.Runs

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the output blocks hold, as functions of the argument arrays

The first scratch is `x·W1`, computed once at the first point from the blocks of `x` and `W1` there. Row block `t` of the
second scratch is the second payload of the adjacency panel at point `t`; the whole second scratch puts row `r` in block
`r / 400` at row `r % 400`. The output block of a point of the second pass is the third payload over that. -/

/-- The grid's first point. -/
def t0 : Fin cfg0.N := ⟨0, by rw [show cfg0.N = 50 from N_0]; omega⟩

/-- The first scratch after the first point: `x·W1`. -/
def s1v (c : Dev nD) : Vec F S10000x64 .bf16 := k0_pay1 (iblk m c 0 t0) (iblk m c 2 t0)

/-- Row block `t` of the second scratch. -/
def s2blk (c : Dev nD) (t : Fin cfg0.N) : Vec F S400x64 .bf16 :=
  k0_pay2 (iblk m c 1 t) (s1v m c) (iblk m c 3 t) (iblk m c 4 t)

/-- The point of the first pass that writes row `r` of the second scratch. -/
def rowPt (r : Fin 10000) : Fin cfg0.N :=
  ⟨r.val / 400, by rw [show cfg0.N = 50 from N_0]; have := r.isLt; omega⟩

/-- The whole second scratch after the first pass. -/
def s2v (c : Dev nD) : Vec F S10000x64 .bf16 := fun y =>
  s2blk m c (rowPt (y 0)) (ix2 (⟨(y 0).val % 400, Nat.mod_lt _ (by omega)⟩ : Fin 400) (y 1))

/-- The output block of point `t`. -/
def outblk (c : Dev nD) (t : Fin cfg0.N) : Vec F S400x64 .f32 := k0_pay3 (iblk m c 1 t) (s2v m c) (iblk m c 5 t)

/-- Row `400·t + x₀`, column `x₁` of the whole second scratch is entry `x` of row block `t`. -/
theorem s2v_block (c : Dev nD) (t : Fin cfg0.N) (ht : t.val < 25) (y : S10000x64.Idx) (x : S400x64.Idx)
    (h0 : (y 0).val = 400 * t.val + (x 0).val) (h1 : (y 1).val = (x 1).val) : s2v m c y = s2blk m c t x := by
  unfold s2v
  have hx : (x 0).val < 400 := idx2_lt0 x
  have e1 : rowPt (y 0) = t := Fin.ext (by show (y 0).val / 400 = t.val; omega)
  have e2 : (ix2 (⟨(y 0).val % 400, Nat.mod_lt _ (by omega)⟩ : Fin 400) (y 1) : S400x64.Idx) = x := by
    funext a; apply Fin.ext
    match a with
    | ⟨0, _⟩ => show (y 0).val % 400 = (x 0).val; omega
    | ⟨1, _⟩ => exact h1
  rw [e1, e2]

/-! ## Facts decided over the grid's fifty points -/

/-- The row offset of the second scratch's block at a point of the first pass. -/
theorem off_row : ∀ t : Fin cfg0.N, t.val < 25 → k0_off1 (grid0.coords t) 0 = 400 * t.val :=
  (by decide +kernel : ∀ t : Fin grid0.N, t.val < 25 → k0_off1 (grid0.coords t) 0 = 400 * t.val)
/-- In the first pass the body stores nothing into the output buffer, -/
theorem idle6 : ∀ t : Fin cfg0.N, t.val < 25 → cfg0.idle 6 (grid0.coords t) = true :=
  (by decide +kernel : ∀ t : Fin grid0.N, t.val < 25 → cfg0.idle 6 (grid0.coords t) = true)
/-- and the buffer is not written back; -/
theorem noflush6 : ∀ t : Fin cfg0.N, t.val < 25 → (cfg0.win 6).flush t = false :=
  (by decide +kernel : ∀ t : Fin grid0.N, t.val < 25 → win0_6.flush t = false)
/-- in the second pass it stores the block. -/
theorem live6 : ∀ t : Fin cfg0.N, 25 ≤ t.val → cfg0.idle 6 (grid0.coords t) = false :=
  (by decide +kernel : ∀ t : Fin grid0.N, 25 ≤ t.val → cfg0.idle 6 (grid0.coords t) = false)

/-! ## The scratch buffers and the invariant -/

/-- The two scratch buffers, whole. -/
abbrev scM0 : Memref sig .tc .vmem S10000x64 .bf16 := Memref.whole cc0_scratch0
abbrev scM1 : Memref sig .tc .vmem S10000x64 .bf16 := Memref.whole cc0_scratch1

/-- What the launch hands the body beside the windows: both scratch buffers at some contents, and the generator. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: at the start both scratches hold anything; after `n` points the first scratch is
    `x·W1` and the second agrees with its final contents on the rows of the blocks written so far (all of them once the
    first pass is over). -/
def Phi (c : Dev nD) : ℕ → sProp 𝕄
  | 0 => Pipeline.ΦA spec0 c
  | n + 1 => iprop(iprop(owns (c : Thread nD τ) scM0 fullShare (s1v m c)
      ∗ (∃ d : Vec F S10000x64 .bf16, ⌜∀ y : S10000x64.Idx, (y 0).val < 400 * (n + 1) → d y = s2v m c y⌝ ∗ owns (c : Thread nD τ) scM1 fullShare d))
      ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scM0 fullShare (s1v m c)
      ∗ (∃ d : Vec F S10000x64 .bf16, ⌜∀ y : S10000x64.Idx, (y 0).val < 400 * (n + 1) → d y = s2v m c y⌝ ∗ owns (c : Thread nD τ) scM1 fullShare d))
      ∗ (∃ r, prngReg c r)) := rfl

theorem Phi_pos (c : Dev nD) (n : ℕ) (hn : n ≠ 0) :
    Phi m c n = iprop(iprop(owns (c : Thread nD τ) scM0 fullShare (s1v m c)
      ∗ (∃ d : Vec F S10000x64 .bf16, ⌜∀ y : S10000x64.Idx, (y 0).val < 400 * n → d y = s2v m c y⌝ ∗ owns (c : Thread nD τ) scM1 fullShare d))
      ∗ (∃ r, prngReg c r)) := by
  cases n with
  | zero => exact absurd rfl hn
  | succ n => rfl

/-! ## The pipeline's proof data -/

/-- The proof data on core `c`: the arrays as the region finds them; after the body each input's buffer at its block and
    the output's at the point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outblk m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant at a point's start and end, restated at the point's position. -/
theorem Phi_castSucc (c : Dev nD) (t : Fin cfg0.N) : (dats m 0 c).Φ t.castSucc = Phi m c t.val := by
  dsimp only [dats]; simp only [Fin.coe_castSucc]
theorem Phi_at_succ (c : Dev nD) (t : Fin cfg0.N) : (dats m 0 c).Φ t.succ = Phi m c (t.val + 1) := by
  dsimp only [dats]; simp only [Fin.val_succ]

end Cert.Kernel.Body

end
-- ==== Proof.KernelBody.Frame.lean ====
import proofs.«131716_g83657372991743_cont_sun_c4_273_6_alg».proof.Proof.KernelBody.Data

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One more row block of the second scratch -/

/-- If the second scratch agreed with its final contents on the rows below `400·t`, and the point `t` of the first pass
    wrote its row block and left the other rows alone, it now agrees on the rows below `400·(t + 1)`. -/
theorem s2_step (c : Dev nD) (t : Fin cfg0.N) (ht : t.val < 25) (d d' : Vec F S10000x64 .bf16)
    (hd : ∀ y : S10000x64.Idx, (y 0).val < 400 * t.val → d y = s2v m c y)
    (hmem : ∀ (y : S10000x64.Idx) (x : S400x64.Idx), (y 0).val = k0_off1 (grid0.coords t) 0 + (x 0).val →
      (y 1).val = (x 1).val → d' y = s2blk m c t x)
    (hout : ∀ y : S10000x64.Idx, ((y 0).val < k0_off1 (grid0.coords t) 0 ∨ k0_off1 (grid0.coords t) 0 + 400 ≤ (y 0).val) → d' y = d y) :
    ∀ y : S10000x64.Idx, (y 0).val < 400 * (t.val + 1) → d' y = s2v m c y := by
  intro y hy
  rw [off_row t ht] at hmem hout
  by_cases hlt : (y 0).val < 400 * t.val
  · rw [hout y (Or.inl hlt)]; exact hd y hlt
  · have hx0 : (y 0).val - 400 * t.val < 400 := by omega
    have hy0 : (y 0).val = 400 * t.val + ((y 0).val - 400 * t.val) := by omega
    rw [hmem y (ix2 (⟨(y 0).val - 400 * t.val, hx0⟩ : Fin 400) (y 1)) hy0 rfl]
    exact (s2v_block m c t ht y _ hy0 rfl).symm

/-! ## The body obligation, at a generic point -/

/-- Each window's current staging memref at point `t`, and its wholeness. -/
abbrev ms0 (t : Fin cfg0.N) : Memref sig .tc .vmem S10000x128 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S128x64 .f32 := win0_2.stage (cfg0.slots t 2)
abbrev ms3 (t : Fin cfg0.N) : Memref sig .tc .vmem S1x64 .f32 := win0_3.stage (cfg0.slots t 3)
abbrev ms4 (t : Fin cfg0.N) : Memref sig .tc .vmem S64x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S400x64 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 4000000 in
/-- The body at any point. The inputs' buffers hold their blocks. At the first point both scratches hold anything and the
    first run applies; at a later point of the first pass the invariant hands over `x·W1` and the second scratch's rows
    written so far, and the second run adds the point's row block; in the second pass every row is written, so the second
    scratch IS its final contents and the third run leaves the point's output block. In the first pass the output buffer
    goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    Phi_castSucc, Phi_at_succ, Phi_succ, after0_0, after0_1, after0_2, after0_3, after0_4, after0_5]
  have hN : t.val < 50 := lt_of_lt_of_eq t.isLt (show cfg0.N = 50 from N_0)
  by_cases hA : t.val = 0
  · have h1 : t.val < 25 := by omega
    rw [Dat.leavesExact_idle _ 6 t (idle6 t h1) (noflush6 t h1)]
    obtain rfl : t = t0 := Fin.ext hA
    rw [show Phi m c (t0 : Fin cfg0.N).val = Pipeline.ΦA spec0 c from rfl, PhiA_eq]
    iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%d6, H6⟩⟩
    iapply (runA c (grid0.coords t0) _ _ _ _ _ _ _ _ _ _ _ _ _ _ _ _ _ _ ((hcond0 t0).mpr rfl) ((hcond1 t0).mpr h1) (fun h => absurd ((hcond2 t0).mp h) (by omega)) (iblk m c 0 t0) (iblk m c 1 t0) (iblk m c 2 t0) (iblk m c 3 t0) (iblk m c 4 t0) (iblk m c 5 t0) _ d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, ⟨%d', %hd', HS1⟩⟩
    isplitl [HS0 HS1 Hg]
    · isplitl [HS0 HS1]
      · isplitl [HS0]; · iexact HS0
        iexists d'; isplitr; swap; · iexact HS1
        ipureintro
        exact s2_step m c t0 h1 d1 d' (fun y hy => absurd hy (by rw [hA]; omega)) hd'.1 hd'.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val < 25
    · rw [Dat.leavesExact_idle _ 6 t (idle6 t h1) (noflush6 t h1), Phi_pos m c t.val hA]
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%d6, H6⟩⟩
      iapply (runB c (grid0.coords t) _ _ _ _ _ _ _ _ _ _ _ _ _ _ _ _ _ _ (fun h => hA ((hcond0 t).mp h)) ((hcond1 t).mpr h1) (fun h => absurd ((hcond2 t).mp h) (by omega)) (iblk m c 0 t) (iblk m c 1 t) (iblk m c 2 t) (iblk m c 3 t) (iblk m c 4 t) (iblk m c 5 t) _ (s1v m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]; · iexact HS0
          iexists d'; isplitr; swap; · iexact HS1
          ipureintro
          exact s2_step m c t h1 d1 d' hd1 hd'.1 hd'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have h2 : 25 ≤ t.val := by omega
      rw [show (dats m 0 c).leavesExact 6 t = owns (c : Thread nD τ) (ms6 t) fullShare ((dats m 0 c).after 6 t) from by
        unfold Dat.leavesExact; rw [live6 t h2], after0_6, Phi_pos m c t.val hA]
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%d6, H6⟩⟩
      have e : d1 = s2v m c := funext fun y => hd1 y (by have := idx2_lt0 y; omega)
      subst e
      iapply (runC c (grid0.coords t) _ _ _ _ _ _ _ _ _ _ _ _ _ _ _ _ _ _ (fun h => hA ((hcond0 t).mp h)) (fun h => h1 ((hcond1 t).mp h)) ((hcond2 t).mpr h2) (iblk m c 0 t) (iblk m c 1 t) (iblk m c 2 t) (iblk m c 3 t) (iblk m c 4 t) (iblk m c 5 t) (s1v m c) (s2v m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro; intro y _; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]

/-- After the last point the invariant gives both scratches back at some contents. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, with every array of the pipeline at what the proof data
    computes — the output array at its entry contents overwritten block by block by the output blocks — and every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealBody.Runs.lean ====
import proofs.«131716_g83657372991743_cont_sun_c4_273_6_alg».proof.Proof.Gen.KernelIdeal.Frame
import proofs.«131716_g83657372991743_cont_sun_c4_273_6_alg».proof.Proof.Gen.KernelIdeal.Skeleton
import Idealize.ShloMosaic.Lib.WritesUnit
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, decided over the grid -/

/-- The first branch's condition: both grid coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)
/-- The second branch's condition: the first pass. -/
abbrev cond1 (i : grid0.Coords) : Prop := k0_cond2 i = 1#1
/-- It holds at the first 25 points. -/
theorem hcond1 : ∀ t : Fin cfg0.N, cond1 (grid0.coords t) ↔ t.val < 25 :=
  (by decide +kernel : ∀ t : Fin grid0.N, cond1 (grid0.coords t) ↔ t.val < 25)
/-- The third branch's condition: the second pass. -/
abbrev cond2 (i : grid0.Coords) : Prop := k0_cond3 i = 1#1
/-- It holds at the last 25 points. -/
theorem hcond2 : ∀ t : Fin cfg0.N, cond2 (grid0.coords t) ↔ 25 ≤ t.val :=
  (by decide +kernel : ∀ t : Fin grid0.N, cond2 (grid0.coords t) ↔ 25 ≤ t.val)

/-! ## Two readings of a buffer after one store -/

/-- The zero offsets of a rank-2 buffer. -/
theorem off00 : (![0, 0] : Fin 2 → ℕ) = fun _ => 0 :=
  funext fun a => by match a with | ⟨0, _⟩ => rfl | ⟨1, _⟩ => rfl

/-- One store through the rectangle that is the whole buffer leaves its payload, whatever was there. -/
theorem read_writes_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, by
    subst h; show y ∈ (Rect.whole S).set; rw [Rect.set_whole]; exact Finset.mem_univ y⟩), View.canon_unit_zero h inb w]

/-! ## The body's three runs

At the first point the body fills the first scratch with `x·W1`, reads it back, and writes one row block of the second
scratch; at the other points of the first pass it reads the first scratch and writes its row block of the second; in
the second pass it reads the whole second scratch and writes the output block. Each run is stated with every buffer's
contents named: the inputs as they were, the scratch rows outside the point's block as they were. -/

set_option maxHeartbeats 1000000 in
/-- A point of the second pass: the output block is the third payload of the adjacency panel, the second scratch and
    the second bias; both scratches are left as found. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ off00]
    simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  isplitl [HS0]
  · iexists _; isplitr; · ipureintro; exact harg9.read_unread _
    iexact HS0
  iexists _; isplitr; · ipureintro; exact harg10.read_unread _
  iexact HS1

set_option maxHeartbeats 1000000 in
/-- A later point of the first pass: the point's row block of the second scratch is the second payload of the adjacency
    panel, the first scratch, the first bias and the second weights; its other rows, the first scratch and the output
    buffer are left as found. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (X6 : Vec F S400x64 .f32) (xs0 xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare xs0 ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare xs0 ∗ (∃ d' : Vec F S10000x64 .bf16, ⌜(∀ (y : S10000x64.Idx) (x : S400x64.Idx), (y 0).val = k0_off1 i 0 + (x 0).val → (y 1).val = (x 1).val → d' y = k0_pay2 x1 xs0 x3 x4 x) ∧ (∀ y : S10000x64.Idx, ((y 0).val < k0_off1 i 0 ∨ k0_off1 i 0 + 400 ≤ (y 0).val) → d' y = xs1 y)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap
  · iexists _; isplitr; swap; · iexact HS1
    ipureintro; rfl
  simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  ipureintro
  refine ⟨fun y x h0 h1 => ?_, fun y h => ?_⟩
  · exact View.read_writes_cons_rows_of_mem (off := k0_off1 i) (size := S400x64.size) (o := k0_off1 i 0) arg10.view (harg10.unread xs1) _ _ [] y x rfl h0 h1
  · refine (View.read_writes_cons_rows_of_not_mem (off := k0_off1 i) (size := S400x64.size) (o := k0_off1 i 0) (W := 400) arg10.view (harg10.unread xs1) _ _ [] y rfl rfl h).trans ?_
    rw [View.writes_nil]; exact congrFun (harg10.read_unread xs1) y

set_option maxHeartbeats 1000000 in
/-- The first point: the first scratch is filled with the first payload of `x` and the first weights, whatever it held;
    the rest as at a later point of the first pass, over that first scratch. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .bf16) (harg9 : arg9.IsWhole) (arg10 : Memref sig .tc .vmem S10000x64 .bf16) (harg10 : arg10.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (X6 : Vec F S400x64 .f32) (xs1 : Vec F S10000x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ (∃ d, owns (c : Thread nD τ) arg9 fullShare d) ∗ owns (c : Thread nD τ) arg10 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ owns (c : Thread nD τ) arg9 fullShare (k0_pay1 x0 x2) ∗ (∃ d' : Vec F S10000x64 .bf16, ⌜(∀ (y : S10000x64.Idx) (x : S400x64.Idx), (y 0).val = k0_off1 i 0 + (x 0).val → (y 1).val = (x 1).val → d' y = k0_pay2 x1 (k0_pay1 x0 x2) x3 x4 x) ∧ (∀ y : S10000x64.Idx, ((y 0).val < k0_off1 i 0 ∨ k0_off1 i 0 + 400 ≤ (y 0).val) → d' y = xs1 y)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    rw [read_writes_whole _ _ off00]
    simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  iexists _; isplitr; swap
  · iexists _; isplitr; swap; · iexact HS1
    ipureintro; rfl
  sl_unfold_run_names
  simp only [View.readCov_unit_zero arg9.view off00]
  simp only [View.readAt_eq_ld, harg2.read_unread, harg3.read_unread, harg4.read_unread, harg5.read_unread, harg6.read_unread, harg7.read_unread, harg9.read_unread, harg10.read_unread, View.ld_unit_zero (S := S10000x128) off00, View.ld_unit_zero (S := S128x64) off00, View.ld_unit_zero (S := S400x10000) off00, View.ld_unit_zero (S := S10000x64) off00, View.ld_unit_zero (S := S1x64) off00, View.ld_unit_zero (S := S64x64) off00]
  ipureintro
  refine ⟨fun y x h0 h1 => ?_, fun y h => ?_⟩
  · exact View.read_writes_cons_rows_of_mem (off := k0_off1 i) (size := S400x64.size) (o := k0_off1 i 0) arg10.view (harg10.unread xs1) _ _ [] y x rfl h0 h1
  · refine (View.read_writes_cons_rows_of_not_mem (off := k0_off1 i) (size := S400x64.size) (o := k0_off1 i 0) (W := 400) arg10.view (harg10.unread xs1) _ _ [] y rfl rfl h).trans ?_
    rw [View.writes_nil]; exact congrFun (harg10.read_unread xs1) y

end Cert.KernelIdeal.Body

end
-- ==== Proof.KernelIdealBody.Data.lean ====
import proofs.«131716_g83657372991743_cont_sun_c4_273_6_alg».proof.Proof.KernelIdealBody.Runs

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the output blocks hold, as functions of the argument arrays

The first scratch is `x·W1`, computed once at the first point from the blocks of `x` and `W1` there. Row block `t` of the
second scratch is the second payload of the adjacency panel at point `t`; the whole second scratch puts row `r` in block
`r / 400` at row `r % 400`. The output block of a point of the second pass is the third payload over that. -/

/-- The grid's first point. -/
def t0 : Fin cfg0.N := ⟨0, by rw [show cfg0.N = 50 from N_0]; omega⟩

/-- The first scratch after the first point: `x·W1`. -/
def s1v (c : Dev nD) : Vec F S10000x64 .bf16 := k0_pay1 (iblk m c 0 t0) (iblk m c 2 t0)

/-- Row block `t` of the second scratch. -/
def s2blk (c : Dev nD) (t : Fin cfg0.N) : Vec F S400x64 .bf16 :=
  k0_pay2 (iblk m c 1 t) (s1v m c) (iblk m c 3 t) (iblk m c 4 t)

/-- The point of the first pass that writes row `r` of the second scratch. -/
def rowPt (r : Fin 10000) : Fin cfg0.N :=
  ⟨r.val / 400, by rw [show cfg0.N = 50 from N_0]; have := r.isLt; omega⟩

/-- The whole second scratch after the first pass. -/
def s2v (c : Dev nD) : Vec F S10000x64 .bf16 := fun y =>
  s2blk m c (rowPt (y 0)) (ix2 (⟨(y 0).val % 400, Nat.mod_lt _ (by omega)⟩ : Fin 400) (y 1))

/-- The output block of point `t`. -/
def outblk (c : Dev nD) (t : Fin cfg0.N) : Vec F S400x64 .f32 := k0_pay3 (iblk m c 1 t) (s2v m c) (iblk m c 5 t)

/-- Row `400·t + x₀`, column `x₁` of the whole second scratch is entry `x` of row block `t`. -/
theorem s2v_block (c : Dev nD) (t : Fin cfg0.N) (ht : t.val < 25) (y : S10000x64.Idx) (x : S400x64.Idx)
    (h0 : (y 0).val = 400 * t.val + (x 0).val) (h1 : (y 1).val = (x 1).val) : s2v m c y = s2blk m c t x := by
  unfold s2v
  have hx : (x 0).val < 400 := idx2_lt0 x
  have e1 : rowPt (y 0) = t := Fin.ext (by show (y 0).val / 400 = t.val; omega)
  have e2 : (ix2 (⟨(y 0).val % 400, Nat.mod_lt _ (by omega)⟩ : Fin 400) (y 1) : S400x64.Idx) = x := by
    funext a; apply Fin.ext
    match a with
    | ⟨0, _⟩ => show (y 0).val % 400 = (x 0).val; omega
    | ⟨1, _⟩ => exact h1
  rw [e1, e2]

/-! ## Facts decided over the grid's fifty points -/

/-- The row offset of the second scratch's block at a point of the first pass. -/
theorem off_row : ∀ t : Fin cfg0.N, t.val < 25 → k0_off1 (grid0.coords t) 0 = 400 * t.val :=
  (by decide +kernel : ∀ t : Fin grid0.N, t.val < 25 → k0_off1 (grid0.coords t) 0 = 400 * t.val)
/-- In the first pass the body stores nothing into the output buffer, -/
theorem idle6 : ∀ t : Fin cfg0.N, t.val < 25 → cfg0.idle 6 (grid0.coords t) = true :=
  (by decide +kernel : ∀ t : Fin grid0.N, t.val < 25 → cfg0.idle 6 (grid0.coords t) = true)
/-- and the buffer is not written back; -/
theorem noflush6 : ∀ t : Fin cfg0.N, t.val < 25 → (cfg0.win 6).flush t = false :=
  (by decide +kernel : ∀ t : Fin grid0.N, t.val < 25 → win0_6.flush t = false)
/-- in the second pass it stores the block. -/
theorem live6 : ∀ t : Fin cfg0.N, 25 ≤ t.val → cfg0.idle 6 (grid0.coords t) = false :=
  (by decide +kernel : ∀ t : Fin grid0.N, 25 ≤ t.val → cfg0.idle 6 (grid0.coords t) = false)

/-! ## The scratch buffers and the invariant -/

/-- The two scratch buffers, whole. -/
abbrev scM0 : Memref sig .tc .vmem S10000x64 .bf16 := Memref.whole cc0_scratch0
abbrev scM1 : Memref sig .tc .vmem S10000x64 .bf16 := Memref.whole cc0_scratch1

/-- What the launch hands the body beside the windows: both scratch buffers at some contents, and the generator. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: at the start both scratches hold anything; after `n` points the first scratch is
    `x·W1` and the second agrees with its final contents on the rows of the blocks written so far (all of them once the
    first pass is over). -/
def Phi (c : Dev nD) : ℕ → sProp 𝕄
  | 0 => Pipeline.ΦA spec0 c
  | n + 1 => iprop(iprop(owns (c : Thread nD τ) scM0 fullShare (s1v m c)
      ∗ (∃ d : Vec F S10000x64 .bf16, ⌜∀ y : S10000x64.Idx, (y 0).val < 400 * (n + 1) → d y = s2v m c y⌝ ∗ owns (c : Thread nD τ) scM1 fullShare d))
      ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scM0 fullShare (s1v m c)
      ∗ (∃ d : Vec F S10000x64 .bf16, ⌜∀ y : S10000x64.Idx, (y 0).val < 400 * (n + 1) → d y = s2v m c y⌝ ∗ owns (c : Thread nD τ) scM1 fullShare d))
      ∗ (∃ r, prngReg c r)) := rfl

theorem Phi_pos (c : Dev nD) (n : ℕ) (hn : n ≠ 0) :
    Phi m c n = iprop(iprop(owns (c : Thread nD τ) scM0 fullShare (s1v m c)
      ∗ (∃ d : Vec F S10000x64 .bf16, ⌜∀ y : S10000x64.Idx, (y 0).val < 400 * n → d y = s2v m c y⌝ ∗ owns (c : Thread nD τ) scM1 fullShare d))
      ∗ (∃ r, prngReg c r)) := by
  cases n with
  | zero => exact absurd rfl hn
  | succ n => rfl

/-! ## The pipeline's proof data -/

/-- The proof data on core `c`: the arrays as the region finds them; after the body each input's buffer at its block and
    the output's at the point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outblk m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant at a point's start and end, restated at the point's position. -/
theorem Phi_castSucc (c : Dev nD) (t : Fin cfg0.N) : (dats m 0 c).Φ t.castSucc = Phi m c t.val := by
  dsimp only [dats]; simp only [Fin.coe_castSucc]
theorem Phi_at_succ (c : Dev nD) (t : Fin cfg0.N) : (dats m 0 c).Φ t.succ = Phi m c (t.val + 1) := by
  dsimp only [dats]; simp only [Fin.val_succ]

end Cert.KernelIdeal.Body

end
-- ==== Proof.KernelIdealBody.Frame.lean ====
import proofs.«131716_g83657372991743_cont_sun_c4_273_6_alg».proof.Proof.KernelIdealBody.Data

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One more row block of the second scratch -/

/-- If the second scratch agreed with its final contents on the rows below `400·t`, and the point `t` of the first pass
    wrote its row block and left the other rows alone, it now agrees on the rows below `400·(t + 1)`. -/
theorem s2_step (c : Dev nD) (t : Fin cfg0.N) (ht : t.val < 25) (d d' : Vec F S10000x64 .bf16)
    (hd : ∀ y : S10000x64.Idx, (y 0).val < 400 * t.val → d y = s2v m c y)
    (hmem : ∀ (y : S10000x64.Idx) (x : S400x64.Idx), (y 0).val = k0_off1 (grid0.coords t) 0 + (x 0).val →
      (y 1).val = (x 1).val → d' y = s2blk m c t x)
    (hout : ∀ y : S10000x64.Idx, ((y 0).val < k0_off1 (grid0.coords t) 0 ∨ k0_off1 (grid0.coords t) 0 + 400 ≤ (y 0).val) → d' y = d y) :
    ∀ y : S10000x64.Idx, (y 0).val < 400 * (t.val + 1) → d' y = s2v m c y := by
  intro y hy
  rw [off_row t ht] at hmem hout
  by_cases hlt : (y 0).val < 400 * t.val
  · rw [hout y (Or.inl hlt)]; exact hd y hlt
  · have hx0 : (y 0).val - 400 * t.val < 400 := by omega
    have hy0 : (y 0).val = 400 * t.val + ((y 0).val - 400 * t.val) := by omega
    rw [hmem y (ix2 (⟨(y 0).val - 400 * t.val, hx0⟩ : Fin 400) (y 1)) hy0 rfl]
    exact (s2v_block m c t ht y _ hy0 rfl).symm

/-! ## The body obligation, at a generic point -/

/-- Each window's current staging memref at point `t`, and its wholeness. -/
abbrev ms0 (t : Fin cfg0.N) : Memref sig .tc .vmem S10000x128 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S128x64 .f32 := win0_2.stage (cfg0.slots t 2)
abbrev ms3 (t : Fin cfg0.N) : Memref sig .tc .vmem S1x64 .f32 := win0_3.stage (cfg0.slots t 3)
abbrev ms4 (t : Fin cfg0.N) : Memref sig .tc .vmem S64x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S400x64 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 4000000 in
/-- The body at any point. The inputs' buffers hold their blocks. At the first point both scratches hold anything and the
    first run applies; at a later point of the first pass the invariant hands over `x·W1` and the second scratch's rows
    written so far, and the second run adds the point's row block; in the second pass every row is written, so the second
    scratch IS its final contents and the third run leaves the point's output block. In the first pass the output buffer
    goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    Phi_castSucc, Phi_at_succ, Phi_succ, after0_0, after0_1, after0_2, after0_3, after0_4, after0_5]
  have hN : t.val < 50 := lt_of_lt_of_eq t.isLt (show cfg0.N = 50 from N_0)
  by_cases hA : t.val = 0
  · have h1 : t.val < 25 := by omega
    rw [Dat.leavesExact_idle _ 6 t (idle6 t h1) (noflush6 t h1)]
    obtain rfl : t = t0 := Fin.ext hA
    rw [show Phi m c (t0 : Fin cfg0.N).val = Pipeline.ΦA spec0 c from rfl, PhiA_eq]
    iintro ⟨⟨⟨HS0, ⟨%d1, HS1⟩⟩, Hg⟩, Ho, ⟨%e0, H0⟩, ⟨%e1, H1⟩, ⟨%e2, H2⟩, ⟨%e3, H3⟩, ⟨%e4, H4⟩, ⟨%e5, H5⟩, ⟨%d6, H6⟩⟩
    iapply (runA c (grid0.coords t0) _ _ _ _ _ _ _ _ _ _ _ _ _ _ _ _ _ _ ((hcond0 t0).mpr rfl) ((hcond1 t0).mpr h1) (fun h => absurd ((hcond2 t0).mp h) (by omega)) (iblk m c 0 t0) (iblk m c 1 t0) (iblk m c 2 t0) (iblk m c 3 t0) (iblk m c 4 t0) (iblk m c 5 t0) _ d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, ⟨%d', %hd', HS1⟩⟩
    isplitl [HS0 HS1 Hg]
    · isplitl [HS0 HS1]
      · isplitl [HS0]; · iexact HS0
        iexists d'; isplitr; swap; · iexact HS1
        ipureintro
        exact s2_step m c t0 h1 d1 d' (fun y hy => absurd hy (by rw [hA]; omega)) hd'.1 hd'.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val < 25
    · rw [Dat.leavesExact_idle _ 6 t (idle6 t h1) (noflush6 t h1), Phi_pos m c t.val hA]
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%d6, H6⟩⟩
      iapply (runB c (grid0.coords t) _ _ _ _ _ _ _ _ _ _ _ _ _ _ _ _ _ _ (fun h => hA ((hcond0 t).mp h)) ((hcond1 t).mpr h1) (fun h => absurd ((hcond2 t).mp h) (by omega)) (iblk m c 0 t) (iblk m c 1 t) (iblk m c 2 t) (iblk m c 3 t) (iblk m c 4 t) (iblk m c 5 t) _ (s1v m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]; · iexact HS0
          iexists d'; isplitr; swap; · iexact HS1
          ipureintro
          exact s2_step m c t h1 d1 d' hd1 hd'.1 hd'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have h2 : 25 ≤ t.val := by omega
      rw [show (dats m 0 c).leavesExact 6 t = owns (c : Thread nD τ) (ms6 t) fullShare ((dats m 0 c).after 6 t) from by
        unfold Dat.leavesExact; rw [live6 t h2], after0_6, Phi_pos m c t.val hA]
      iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%d6, H6⟩⟩
      have e : d1 = s2v m c := funext fun y => hd1 y (by have := idx2_lt0 y; omega)
      subst e
      iapply (runC c (grid0.coords t) _ _ _ _ _ _ _ _ _ _ _ _ _ _ _ _ _ _ (fun h => hA ((hcond0 t).mp h)) (fun h => h1 ((hcond1 t).mp h)) ((hcond2 t).mpr h2) (iblk m c 0 t) (iblk m c 1 t) (iblk m c 2 t) (iblk m c 3 t) (iblk m c 4 t) (iblk m c 5 t) (s1v m c) (s2v m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro; intro y _; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]

/-- After the last point the invariant gives both scratches back at some contents. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, with every array of the pipeline at what the proof data
    computes — the output array at its entry contents overwritten block by block by the output blocks — and every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.KernelIdealBody.Blocks.lean ====
import proofs.«131716_g83657372991743_cont_sun_c4_273_6_alg».proof.Proof.KernelIdealBody.Frame
import proofs.«131716_g83657372991743_cont_sun_c4_273_6_alg».proof.Proof.LibRowBroadcast
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-! ## Where each window's block sits in its array

The windows of `x`, both weights and both biases always hold their whole array; the adjacency window at point `t` holds
rows `400·(t mod 25)` onward; the output window in the second pass sits at rows `400·(t − 25)` onward. -/

theorem idx_in : ∀ t : Fin cfg0.N, (win0_0.index t 0 = 0 ∧ win0_0.index t 1 = 0) ∧ (win0_1.index t 0 = t.val % 25 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_0.index t 0 = 0 ∧ win0_0.index t 1 = 0) ∧ (win0_1.index t 0 = t.val % 25 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

theorem idx_out : ∀ t : Fin cfg0.N, 25 ≤ t.val → win0_6.index t 0 = t.val - 25 ∧ win0_6.index t 1 = 0 :=
  (by decide +kernel : ∀ t : Fin grid0.N, 25 ≤ t.val → win0_6.index t 0 = t.val - 25 ∧ win0_6.index t 1 = 0)

/-- The output block is written back exactly at the points of the second pass. -/
theorem flush6 : ∀ t : Fin cfg0.N, (cfg0.win 6).flush t = true ↔ 25 ≤ t.val :=
  (by decide +kernel : ∀ t : Fin grid0.N, win0_6.flush t = true ↔ 25 ≤ t.val)

/-- Window 0's block at a point, entry by entry, is the array's entry at the block's place. -/
theorem iblk0_apply (c : Dev nD) (t : Fin cfg0.N) (x : S10000x128.Idx) (k : S10000x128.Idx)
    (hk0 : (k 0).val = 0 + (x 0).val) (hk1 : (k 1).val = (x 1).val) :
    (iblk m c 0 t : Vec F S10000x128 .f32) x = (m ((c : Thread nD τ).loc main_arg0) : S10000x128.Idx → Elt F .f32) k := by
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * (x 0).val = (k 0).val; rw [(idx_in t).1.1, hk0]; omega
  | ⟨1, _⟩ => show win0_0.index t 1 * 128 + 1 * (x 1).val = (k 1).val; rw [(idx_in t).1.2, hk1]; omega

/-- Window 1's block at a point, entry by entry, is the array's entry at the block's place. -/
theorem iblk1_apply (c : Dev nD) (t : Fin cfg0.N) (x : S400x10000.Idx) (k : S10000x10000.Idx)
    (hk0 : (k 0).val = 400 * (t.val % 25) + (x 0).val) (hk1 : (k 1).val = (x 1).val) :
    (iblk m c 1 t : Vec F S400x10000 .f32) x = (m ((c : Thread nD τ).loc main_arg1) : S10000x10000.Idx → Elt F .f32) k := by
  unfold iblk
  rw [View.read_apply]
  show V m c main_arg1 _ = m (c.tc.loc main_arg1) _
  rw [V_main_arg1]
  congr 1
  funext a
  apply Fin.ext
  match a with
  | ⟨0, _⟩ => show win0_1.index t 0 * 400 + 1 * (x 0).val = (k 0).val; rw [(idx_in t).2.1.1, hk0]; omega
  | ⟨1, _⟩ => show win0_1.index t 1 * 10000 + 1 * (x 1).val = (k 1).val; rw [(idx_in t).2.1.2, hk1]; omega

/-- Window 2's block at a point, entry by entry, is the array's entry at the block's place. -/
theorem iblk2_apply (c : Dev nD) (t : Fin cfg0.N) (x : S128x64.Idx) (k : S128x64.Idx)
    (hk0 : (k 0).val = 0 + (x 0).val) (hk1 : (k 1).val = (x 1).val) :
    (iblk m c 2 t : Vec F S128x64 .f32) x = (m ((c : Thread nD τ).loc main_arg2) : S128x64.Idx → Elt F .f32) k := by
  unfold iblk
  rw [View.read_apply]
  show V m c main_arg2 _ = m (c.tc.loc main_arg2) _
  rw [V_main_arg2]
  congr 1
  funext a
  apply Fin.ext
  match a with
  | ⟨0, _⟩ => show win0_2.index t 0 * 128 + 1 * (x 0).val = (k 0).val; rw [(idx_in t).2.2.1.1, hk0]; omega
  | ⟨1, _⟩ => show win0_2.index t 1 * 64 + 1 * (x 1).val = (k 1).val; rw [(idx_in t).2.2.1.2, hk1]; omega

/-- Window 4's block at a point, entry by entry, is the array's entry at the block's place. -/
theorem iblk4_apply (c : Dev nD) (t : Fin cfg0.N) (x : S64x64.Idx) (k : S64x64.Idx)
    (hk0 : (k 0).val = 0 + (x 0).val) (hk1 : (k 1).val = (x 1).val) :
    (iblk m c 4 t : Vec F S64x64 .f32) x = (m ((c : Thread nD τ).loc main_arg4) : S64x64.Idx → Elt F .f32) k := by
  unfold iblk
  rw [View.read_apply]
  show V m c main_arg4 _ = m (c.tc.loc main_arg4) _
  rw [V_main_arg4]
  congr 1
  funext a
  apply Fin.ext
  match a with
  | ⟨0, _⟩ => show win0_4.index t 0 * 64 + 1 * (x 0).val = (k 0).val; rw [(idx_in t).2.2.2.2.1.1, hk0]; omega
  | ⟨1, _⟩ => show win0_4.index t 1 * 64 + 1 * (x 1).val = (k 1).val; rw [(idx_in t).2.2.2.2.1.2, hk1]; omega

/-- The array window 3 stages is the flat bias laid out as one row. -/
theorem V_main_v0 (c : Dev nD) :
    (V m c main_v0 : S1x64.Idx → Elt F .f32) = shapeCast S1x64 (m ((c : Thread nD τ).loc main_arg3)) shapeCasts_S64_S1x64 := by
  dsimp only [V, hostOps0]; after_results; rfl

/-- Window 3's block at a point is that row: entry `(0, j)` is the bias's entry `j`. -/
theorem iblk3_apply (c : Dev nD) (t : Fin cfg0.N) (z : Fin 1) (j : Fin 64) :
    (iblk m c 3 t : Vec F S1x64 .f32) (ix2 z j) = (m ((c : Thread nD τ).loc main_arg3) : S64.Idx → Elt F .f32) (ix1 j) := by
  unfold iblk
  rw [View.read_apply]
  show V m c main_v0 _ = _
  rw [V_main_v0]
  refine Eq.trans (congrArg _ ?_) (RowBroadcast.shapeCast_flat_apply _ shapeCasts_S64_S1x64 z j)
  funext a
  apply Fin.ext
  match a with
  | ⟨0, _⟩ => show win0_3.index t 0 * 1 + 1 * z.val = z.val; rw [(idx_in t).2.2.2.1.1]; omega
  | ⟨1, _⟩ => show win0_3.index t 1 * 64 + 1 * j.val = j.val; rw [(idx_in t).2.2.2.1.2]; omega

/-- The array window 5 stages is the flat bias laid out as one row. -/
theorem V_main_v1 (c : Dev nD) :
    (V m c main_v1 : S1x64.Idx → Elt F .f32) = shapeCast S1x64 (m ((c : Thread nD τ).loc main_arg5)) shapeCasts_S64_S1x64 := by
  dsimp only [V, hostOps0]; after_results; rfl

/-- Window 5's block at a point is that row: entry `(0, j)` is the bias's entry `j`. -/
theorem iblk5_apply (c : Dev nD) (t : Fin cfg0.N) (z : Fin 1) (j : Fin 64) :
    (iblk m c 5 t : Vec F S1x64 .f32) (ix2 z j) = (m ((c : Thread nD τ).loc main_arg5) : S64.Idx → Elt F .f32) (ix1 j) := by
  unfold iblk
  rw [View.read_apply]
  show V m c main_v1 _ = _
  rw [V_main_v1]
  refine Eq.trans (congrArg _ ?_) (RowBroadcast.shapeCast_flat_apply _ shapeCasts_S64_S1x64 z j)
  funext a
  apply Fin.ext
  match a with
  | ⟨0, _⟩ => show win0_5.index t 0 * 1 + 1 * z.val = z.val; rw [(idx_in t).2.2.2.2.2.1]; omega
  | ⟨1, _⟩ => show win0_5.index t 1 * 64 + 1 * j.val = j.val; rw [(idx_in t).2.2.2.2.2.2]; omega

end Cert.KernelIdeal.Body

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibLogSoftmaxRow.lean ====
/-
  A row-wise log-softmax read at an entry, on the extended reals.

  For an `[a, b]` array `z` the computation "subtract the row's largest entry, exponentiate, sum the row, take the
  logarithm, subtract" — the two row reductions kept as `[a, 1]` columns and broadcast back over the lanes — is, at
  entry `(p, c)`, `(z (p, c) − m) − log (Σ_k exp (z (p, k) − m))` with `m` the fold of `max` from `−∞` over row `p`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LogSoftmaxRow

open Idealize.ShloMosaic Idealize.ShloMosaic.ValueIdx

variable {a b : ℕ}

/-- The largest entry of row `p`: the fold of `max` from `−∞`. -/
def rowTop (z : FVec Ideal ⟨2, ![a, b]⟩ .f32) (p : Fin a) : EReal :=
  (Finset.univ : Finset (Fin b)).fold max ⊥ (fun k => z (ix2 p k))

/-- The binary32 word of `−∞` denotes `⊥`. -/
theorem ofBits_neg_inf : Ideal.ofBits .f32 0xFF800000#32 = (⊥ : EReal) := by
  simp [Ideal.ofBits, Ideal.ieee]

/-- The lane maximum from `−∞`, kept as a column and broadcast back, reads at `(p, c)` the row's largest entry. -/
theorem top_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0xFF800000#32 : BitVec 32) = FKind.maximumf.neutral .f32 (.inl rfl)) (p : Fin a) (c : Fin b) :
    broadcastTo ⟨2, ![a, b]⟩ (shapeCast ⟨2, ![a, 1]⟩ (multiReduction .maximumf [1] ⟨1, ![a]⟩ z 0xFF800000#32 hred (.inl rfl) hacc) hc) hb (ix2 p c)
      = rowTop z p := by
  have e1 : broadcastTo ⟨2, ![a, b]⟩ (shapeCast ⟨2, ![a, 1]⟩ (multiReduction .maximumf [1] ⟨1, ![a]⟩ z 0xFF800000#32 hred (.inl rfl) hacc) hc) hb (ix2 p c)
      = shapeCast ⟨2, ![a, 1]⟩ (multiReduction .maximumf [1] ⟨1, ![a]⟩ z 0xFF800000#32 hred (.inl rfl) hacc) hc (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .maximumf [1] ⟨1, ![a]⟩ z 0xFF800000#32 hred (.inl rfl) hacc) hc (ix2 p (0 : Fin 1))
      = multiReduction .maximumf [1] ⟨1, ![a]⟩ z 0xFF800000#32 hred (.inl rfl) hacc (ix1 p) :=
    shapeCast_apply _ hc _ _ (by
      rw [Shape.rowMajor_val_two, Shape.rowMajor_val_one]
      show p.val = p.val * 1 + 0
      omega)
  rw [e1, e2]
  refine (Ideal.multiReduction_maximumf_single z 0xFF800000#32 hred (.inl rfl) hacc (ix1 p)).trans ?_
  rw [show (FloatOps.ofBits (F := Ideal) .f32 0xFF800000#32 : EReal) = ⊥ from ofBits_neg_inf]
  unfold rowTop
  refine congrArg (fun f => (Finset.univ : Finset (Fin b)).fold max ⊥ f) (funext fun k => ?_)
  exact congrArg z (funext fun ax => Fin.ext (by
    match ax with
    | ⟨0, _⟩ => rfl
    | ⟨1, _⟩ => rfl))

/-- The lane sum into zero of an array `w`, kept as a column, its logarithm broadcast back, reads at `(p, c)` the
    logarithm of row `p`'s sum. -/
theorem logSum_apply (w : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0x00000000#32 : BitVec 32) = 0x00000000#32) (p : Fin a) (c : Fin b) :
    broadcastTo ⟨2, ![a, b]⟩ (log (shapeCast ⟨2, ![a, 1]⟩ (multiReduction .add [1] ⟨1, ![a]⟩ w 0x00000000#32 hred (.inl rfl) hacc) hc)) hb (ix2 p c)
      = Ideal.log (∑ k : Fin b, w (ix2 p k)) := by
  have e1 : broadcastTo ⟨2, ![a, b]⟩ (log (shapeCast ⟨2, ![a, 1]⟩ (multiReduction .add [1] ⟨1, ![a]⟩ w 0x00000000#32 hred (.inl rfl) hacc) hc)) hb (ix2 p c)
      = log (shapeCast ⟨2, ![a, 1]⟩ (multiReduction .add [1] ⟨1, ![a]⟩ w 0x00000000#32 hred (.inl rfl) hacc) hc) (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .add [1] ⟨1, ![a]⟩ w 0x00000000#32 hred (.inl rfl) hacc) hc (ix2 p (0 : Fin 1))
      = multiReduction .add [1] ⟨1, ![a]⟩ w 0x00000000#32 hred (.inl rfl) hacc (ix1 p) :=
    shapeCast_apply _ hc _ _ (by
      rw [Shape.rowMajor_val_two, Shape.rowMajor_val_one]
      show p.val = p.val * 1 + 0
      omega)
  rw [e1]
  show Ideal.log (shapeCast ⟨2, ![a, 1]⟩ (multiReduction .add [1] ⟨1, ![a]⟩ w 0x00000000#32 hred (.inl rfl) hacc) hc (ix2 p (0 : Fin 1))) = _
  rw [e2]
  refine congrArg Ideal.log ?_
  refine (Ideal.multiReduction_add_single w 0x00000000#32 hred (.inl rfl) hacc (ix1 p)).trans ?_
  exact Finset.sum_congr rfl fun k _ => congrArg w (funext fun ax => Fin.ext (by
    match ax with
    | ⟨0, _⟩ => rfl
    | ⟨1, _⟩ => rfl))

/-- The whole row-wise log-softmax at entry `(p, c)`. -/
theorem logSoftmax_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc1 : (0xFF800000#32 : BitVec 32) = FKind.maximumf.neutral .f32 (.inl rfl))
    (hacc2 : (0x00000000#32 : BitVec 32) = 0x00000000#32) (p : Fin a) (c : Fin b) :
    subf (subf z (broadcastTo ⟨2, ![a, b]⟩ (shapeCast ⟨2, ![a, 1]⟩ (multiReduction .maximumf [1] ⟨1, ![a]⟩ z 0xFF800000#32 hred (.inl rfl) hacc1) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z 0xFF800000#32 hred (.inl rfl) hacc1) hc) hb)))
          0x00000000#32 hred (.inl rfl) hacc2) hc)) hb) (ix2 p c)
      = (z (ix2 p c) - rowTop z p) - Ideal.log (∑ k : Fin b, Ideal.exp (z (ix2 p k) - rowTop z p)) := by
  rw [subf_apply, subf_apply, top_apply z hred hc hb hacc1 p c, logSum_apply _ hred hc hb hacc2 p c]
  refine congrArg (fun s => (z (ix2 p c) - rowTop z p) - Ideal.log s) (Finset.sum_congr rfl fun k _ => ?_)
  show Ideal.exp (subf z _ (ix2 p k)) = _
  rw [subf_apply, top_apply z hred hc hb hacc1 p k]

end Idealize.ShloMosaic.LogSoftmaxRow

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.KernelPayloads.lean ====
/-
  The three pure values the kernel body stores, read at an entry on the extended reals.

  The first is the product `x·W1` (the matrix unit into the zero accumulator; the narrowing to the 16-bit format is the
  identity on the extended reals). The second is, for a panel `A` of 400 rows of the adjacency matrix,
  `max (A·s1 + b1, 0)·W2`, the bias a `[1, 64]` row added along the rows. The third is, for the panel's output
  `o' = A·s2 + b2`, `o' − (log (Σ_k exp (o' − m)) + m)` with `m` the row's largest entry kept as a column: the
  lane maximum from `−∞`, the lane sum into zero, both cast `[400] → [400, 1]`, added, and broadcast back over lanes.
-/
import proofs.«131716_g83657372991743_cont_sun_c4_273_6_alg».proof.Proof.Gen.KernelIdeal.Skeleton
import proofs.«131716_g83657372991743_cont_sun_c4_273_6_alg».proof.Proof.LibPlainDot
import proofs.«131716_g83657372991743_cont_sun_c4_273_6_alg».proof.Proof.LibRowBroadcast
import proofs.«131716_g83657372991743_cont_sun_c4_273_6_alg».proof.Proof.LibLogSoftmaxRow
import proofs.«131716_g83657372991743_cont_sun_c4_273_6_alg».proof.Proof.LibKeepdims
import proofs.«131716_g83657372991743_cont_sun_c4_273_6_alg».proof.Proof.LibRowOps

noncomputable section

namespace Cert.KernelIdeal.Payloads

open Cert.KernelIdeal Cert.KernelIdeal.Gen Idealize.ShloMosaic Idealize.ShloMosaic.ValueIdx
open Idealize.ShloMosaic.LogSoftmaxRow
open scoped BigOperators

/-! ### The three dimension records contract the left operand's second axis with the right operand's first -/

theorem d1_hl0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem d1_hl1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem d1_hr0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem d1_hr1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

theorem d2_hl0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
theorem d2_hl1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem d2_hr0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem d2_hr1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

theorem d3_hl0 (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide),
    dif_pos (show (0 : Fin S400x64.rank) ∈ dot_S400x64_S64x64_S400x64_1_0_0_1_n_n.lhsNonContracting by decide)]
  rfl
theorem d3_hl1 (i : S400x64.Idx) (q : dot_S400x64_S64x64_S400x64_1_0_0_1_n_n.contr.Idx) : (dot_S400x64_S64x64_S400x64_1_0_0_1_n_n.lhsIdx i q 1).val = (q ⟨0, by decide⟩).val :=
  dot_S400x64_S64x64_S400x64_1_0_0_1_n_n.lhsIdx_val_of_single rfl i q
theorem d3_hr0 (i : S400x64.Idx) (q : dot_S400x64_S64x64_S400x64_1_0_0_1_n_n.contr.Idx) : (dot_S400x64_S64x64_S400x64_1_0_0_1_n_n.rhsIdx i q 0).val = (q ⟨0, by decide⟩).val :=
  dot_S400x64_S64x64_S400x64_1_0_0_1_n_n.rhsIdx_val_of_single rfl i q
theorem d3_hr1 (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide),
    dif_pos (show (1 : Fin S64x64.rank) ∈ dot_S400x64_S64x64_S400x64_1_0_0_1_n_n.rhsNonContracting by decide)]
  rfl

/-! ### The first payload -/

/-- The first support `x·W1` at entry `(k, j)`. -/
theorem pay1_apply (x : Vec Ideal S10000x128 .f32) (W1 : Vec Ideal S128x64 .f32) (k : Fin 10000) (j : Fin 64) :
    k0_pay1 (F := Ideal) x W1 (ix2 k j) = ∑ a : Fin 128, x (ix2 k a) * W1 (ix2 a j) := by
  unfold k0_pay1
  refine (congrFun (shapeCast_self _ _) (ix2 k j)).trans ?_
  exact PlainDot.matmul_zero_apply (φ₁ := .f32) (φ₂ := .f32) dot_S10000x128_S128x64_S10000x64_1_0_0_1_n_n none rfl rfl d1_hl0 d1_hl1 d1_hr0 d1_hr1 x W1 k j

/-! ### A panel of the adjacency matrix times a support, plus a bias row -/

/-- `A·s + b` at entry `(r, c)`: the product into the zero accumulator plus the `[1, 64]` row broadcast down the rows. -/
theorem panel_apply (A : FVec Ideal S400x10000 .f32) (s : FVec Ideal S10000x64 .bf16) (b : FVec Ideal S1x64 .f32)
    (ht : FTy.bits .bf16 < FTy.bits .f32) (hsc : S1x64.ShapeCasts S1x64) (hbr : S1x64.Broadcasts S400x64)
    (r : Fin 400) (c : Fin 64) :
    addf (F := Ideal) (matmul dot_S400x10000_S10000x64_S400x64_1_0_0_1_n_n none (truncf (F := Ideal) .bf16 A ht) s (constant (F := Ideal) S400x64 .f32 0x00000000#32))
        (broadcastTo S400x64 (shapeCast S1x64 b hsc) hbr) (ix2 r c)
      = (∑ k : Fin 10000, A (ix2 r k) * s (ix2 k c)) + b (ix2 (0 : Fin 1) c) := by
  refine (addf_apply _ _ _).trans (congrArg₂ (fun u v => u + v) ?_ ?_)
  · exact PlainDot.matmul_zero_apply dot_S400x10000_S10000x64_S400x64_1_0_0_1_n_n none rfl rfl d2_hl0 d2_hl1 d2_hr0 d2_hr1 (truncf (F := Ideal) .bf16 A ht) s r c
  · exact (RowBroadcast.broadcastTo_row_apply _ hbr r c).trans (congrFun (shapeCast_self b hsc) _)

/-- The output of a panel: `A·s + b`, entry by entry. -/
def panelOut (A : Vec Ideal S400x10000 .f32) (s : Vec Ideal S10000x64 .bf16) (b : Vec Ideal S1x64 .f32) :
    FVec Ideal ⟨2, ![400, 64]⟩ .f32 :=
  fun i => (∑ k : Fin 10000, A (ix2 (i 0) k) * s (ix2 k (i 1))) + b (ix2 (0 : Fin 1) (i 1))

/-- The kernel's `A·s + b` is `panelOut`. -/
theorem panel_eq (A : FVec Ideal S400x10000 .f32) (s : FVec Ideal S10000x64 .bf16) (b : FVec Ideal S1x64 .f32)
    (ht : FTy.bits .bf16 < FTy.bits .f32) (hsc : S1x64.ShapeCasts S1x64) (hbr : S1x64.Broadcasts S400x64) :
    addf (F := Ideal) (matmul dot_S400x10000_S10000x64_S400x64_1_0_0_1_n_n none (truncf (F := Ideal) .bf16 A ht) s (constant (F := Ideal) S400x64 .f32 0x00000000#32))
        (broadcastTo S400x64 (shapeCast S1x64 b hsc) hbr)
      = panelOut A s b := by
  funext i
  obtain ⟨r, c, rfl⟩ : ∃ r c, i = ix2 r c := ⟨i 0, i 1, eq_ix2 i⟩
  exact panel_apply A s b ht hsc hbr r c

/-! ### The second payload -/

/-- The second support of a panel, `max (A·s1 + b1, 0)·W2`, at entry `(r, c)`. -/
theorem pay2_apply (A : Vec Ideal S400x10000 .f32) (s1 : Vec Ideal S10000x64 .bf16) (b1 : Vec Ideal S1x64 .f32)
    (W2 : Vec Ideal S64x64 .f32) (r : Fin 400) (c : Fin 64) :
    k0_pay2 (F := Ideal) A s1 b1 W2 (ix2 r c)
      = ∑ j : Fin 64, max ((∑ k : Fin 10000, A (ix2 r k) * s1 (ix2 k j)) + b1 (ix2 (0 : Fin 1) j)) 0 * W2 (ix2 j c) := by
  unfold k0_pay2
  refine (congrFun (shapeCast_self _ _) (ix2 r c)).trans ?_
  refine (PlainDot.matmul_zero_apply (φ₁ := .f32) (φ₂ := .f32) dot_S400x64_S64x64_S400x64_1_0_0_1_n_n none rfl rfl d3_hl0 d3_hl1 d3_hr0 d3_hr1 _ W2 r c).trans ?_
  refine Finset.sum_congr rfl fun j _ => congrArg (fun u => u * W2 (ix2 j c)) ?_
  refine (maximumf_apply _ _ _).trans (congrArg₂ (fun u v => max u v) ?_ ?_)
  · exact panel_apply A s1 b1 _ _ _ r j
  · exact Ideal.ofBits_zero_f32

/-! ### The row-wise log-softmax with the row maximum kept as a column -/

/-- The lane maximum from `−∞`, cast to a column, reads at `(p, u)` the row's largest entry. -/
theorem colTop_apply {a b : ℕ} (z : FVec Ideal ⟨2, ![a, b]⟩ .f32) (hred : (⟨2, ![a, b]⟩ : Shape).Reduces [1] ⟨1, ![a]⟩)
    (hc : (⟨1, ![a]⟩ : Shape).ShapeCasts ⟨2, ![a, 1]⟩)
    (hacc : (0xFF800000#32 : BitVec 32) = FKind.maximumf.neutral .f32 (.inl rfl)) (p : Fin a) (u : Fin 1) :
    shapeCast ⟨2, ![a, 1]⟩ (multiReduction .maximumf [1] ⟨1, ![a]⟩ z 0xFF800000#32 hred (.inl rfl) hacc) hc (ix2 p u)
      = rowTop z p :=
  (Keepdims.shapeCast_a_a1_apply _ hc p u).trans (RowOps.rowMax_apply z hred hacc p)

/-- The lane sum into zero, cast to a column, reads at `(p, u)` the row's sum. -/
theorem colSum_apply {a b : ℕ} (w : FVec Ideal ⟨2, ![a, b]⟩ .f32) (hred : (⟨2, ![a, b]⟩ : Shape).Reduces [1] ⟨1, ![a]⟩)
    (hc : (⟨1, ![a]⟩ : Shape).ShapeCasts ⟨2, ![a, 1]⟩)
    (hacc : (0x00000000#32 : BitVec 32) = 0x00000000#32) (p : Fin a) (u : Fin 1) :
    shapeCast ⟨2, ![a, 1]⟩ (multiReduction .add [1] ⟨1, ![a]⟩ w 0x00000000#32 hred (.inl rfl) hacc) hc (ix2 p u)
      = ∑ k : Fin b, w (ix2 p k) :=
  (Keepdims.shapeCast_a_a1_apply _ hc p u).trans (Keepdims.rowSum_apply w hred hacc p)

/-- Subtracting from `z` the column "log of the row's shifted exponential sum, plus the row's largest entry"
    broadcast back over lanes, at entry `(p, c)`. -/
theorem keptLogSoftmax_apply {a b : ℕ} (z : FVec Ideal ⟨2, ![a, b]⟩ .f32)
    (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc1 : (0xFF800000#32 : BitVec 32) = FKind.maximumf.neutral .f32 (.inl rfl))
    (hacc2 : (0x00000000#32 : BitVec 32) = 0x00000000#32) (p : Fin a) (c : Fin b) :
    subf z (broadcastTo ⟨2, ![a, b]⟩
        (addf
          (log (shapeCast ⟨2, ![a, 1]⟩ (multiReduction .add [1] ⟨1, ![a]⟩
            (exp (subf z (broadcastTo ⟨2, ![a, b]⟩
              (shapeCast ⟨2, ![a, 1]⟩ (multiReduction .maximumf [1] ⟨1, ![a]⟩ z 0xFF800000#32 hred (.inl rfl) hacc1) hc) hb)))
            0x00000000#32 hred (.inl rfl) hacc2) hc))
          (shapeCast ⟨2, ![a, 1]⟩ (multiReduction .maximumf [1] ⟨1, ![a]⟩ z 0xFF800000#32 hred (.inl rfl) hacc1) hc))
        hb) (ix2 p c)
      = z (ix2 p c) - (Ideal.log (∑ k : Fin b, Ideal.exp (z (ix2 p k) - rowTop z p)) + rowTop z p) := by
  refine (subf_apply _ _ _).trans (congrArg (fun t => z (ix2 p c) - t) ?_)
  refine (Keepdims.broadcastTo_a1_ab_apply _ hb p c).trans ?_
  refine (addf_apply _ _ _).trans (congrArg₂ (fun u v => u + v) ?_ (colTop_apply z hred hc hacc1 p 0))
  change Ideal.log _ = _
  refine congrArg Ideal.log ?_
  refine (colSum_apply _ hred hc hacc2 p 0).trans (Finset.sum_congr rfl fun k _ => ?_)
  change Ideal.exp (subf z _ (ix2 p k)) = _
  rw [subf_apply, top_apply z hred hc hb hacc1 p k]

/-! ### The third payload -/

/-- The result of a panel: its output less "log-sum-exp plus the row's largest entry", at entry `(r, c)`. -/
theorem pay3_apply (A : Vec Ideal S400x10000 .f32) (s2 : Vec Ideal S10000x64 .bf16) (b2 : Vec Ideal S1x64 .f32)
    (r : Fin 400) (c : Fin 64) :
    k0_pay3 (F := Ideal) A s2 b2 (ix2 r c)
      = panelOut A s2 b2 (ix2 r c)
          - (Ideal.log (∑ k : Fin 64, Ideal.exp (panelOut A s2 b2 (ix2 r k) - rowTop (panelOut A s2 b2) r))
              + rowTop (panelOut A s2 b2) r) := by
  unfold k0_pay3
  refine (keptLogSoftmax_apply _ _ _ _ rfl rfl r c).trans ?_
  exact congrArg (fun z : FVec Ideal ⟨2, ![400, 64]⟩ .f32 =>
    z (ix2 r c) - (Ideal.log (∑ k : Fin 64, Ideal.exp (z (ix2 r k) - rowTop z r)) + rowTop z r)) (panel_eq A s2 b2 _ _ _)

end Cert.KernelIdeal.Payloads

end
-- ==== Proof.Spec.lean ====
/-
  The two-layer graph convolution with a row-wise log-softmax, as one function of the six argument arrays, entry by
  entry on the extended reals.

  With `s1 = x·W1`, `h = max (adj·s1 + b1, 0)`, `s2 = h·W2` and `o = adj·s2 + b2` (every product a plain sum over the
  contracted coordinate, each bias added along the rows), the result at `(p, c)` is
  `(o (p, c) − m) − log (Σ_k exp (o (p, k) − m))` with `m` the largest entry of row `p` of `o`.
-/
import Idealize.ShloMosaic.Lib.ValueIdx
import Idealize.ShloMosaic.PureOps.Ideal.Laws
import proofs.«131716_g83657372991743_cont_sun_c4_273_6_alg».proof.Proof.LibLogSoftmaxRow

noncomputable section

namespace Cert.Spec

open Idealize.ShloMosaic Idealize.ShloMosaic.ValueIdx Idealize.ShloMosaic.LogSoftmaxRow
open scoped BigOperators

/-- An `[a, b]` array of extended reals. -/
abbrev Mat (a b : ℕ) : Type := FVec Ideal ⟨2, ![a, b]⟩ .f32
/-- A flat `[b]` array of extended reals. -/
abbrev Row (b : ℕ) : Type := FVec Ideal ⟨1, ![b]⟩ .f32

variable (x : Mat 10000 128) (adj : Mat 10000 10000) (W1 : Mat 128 64) (b1 : Row 64) (W2 : Mat 64 64) (b2 : Row 64)

/-- The first support `x·W1`. -/
def s1 : Mat 10000 64 := fun i => ∑ a : Fin 128, x (ix2 (i 0) a) * W1 (ix2 a (i 1))

/-- The hidden layer `max (adj·s1 + b1, 0)`. -/
def h : Mat 10000 64 := fun i =>
  max ((∑ k : Fin 10000, adj (ix2 (i 0) k) * s1 x W1 (ix2 k (i 1))) + b1 (ix1 (i 1))) 0

/-- The second support `h·W2`. -/
def s2 : Mat 10000 64 := fun i => ∑ j : Fin 64, h x adj W1 b1 (ix2 (i 0) j) * W2 (ix2 j (i 1))

/-- The output layer before normalisation, `adj·s2 + b2`. -/
def o : Mat 10000 64 := fun i =>
  (∑ k : Fin 10000, adj (ix2 (i 0) k) * s2 x adj W1 b1 W2 (ix2 k (i 1))) + b2 (ix1 (i 1))

/-- The row-wise log-softmax of the output layer. -/
def G : Mat 10000 64 := fun i =>
  (o x adj W1 b1 W2 b2 i - rowTop (o x adj W1 b1 W2 b2) (i 0))
    - Ideal.log (∑ k : Fin 64, Ideal.exp (o x adj W1 b1 W2 b2 (ix2 (i 0) k) - rowTop (o x adj W1 b1 W2 b2) (i 0)))

end Cert.Spec

end
-- ==== Proof.KValue.lean ====
import proofs.«131716_g83657372991743_cont_sun_c4_273_6_alg».proof.Proof.KernelIdealBody.Blocks
import proofs.«131716_g83657372991743_cont_sun_c4_273_6_alg».proof.Proof.KernelPayloads
import proofs.«131716_g83657372991743_cont_sun_c4_273_6_alg».proof.Proof.Spec

set_option maxRecDepth 16384

noncomputable section

namespace Cert.KernelIdeal.KValue

open Cert.KernelIdeal Cert.KernelIdeal.Gen Cert.KernelIdeal.Body Cert.KernelIdeal.Payloads Cert.Spec
open Idealize.ShloMosaic Idealize.ShloMosaic.TcCoe Idealize.ShloMosaic.ValueIdx Idealize.ShloMosaic.LogSoftmaxRow Idealize.SL.Sem
open Idealize.ShloMosaic.Pipeline (Dat)
open scoped BigOperators

variable (m : (ℓ : Loc nD τ sig) → Buf (Elt Ideal) ℓ) (ρ : Dev nD → PrngReg)

/-! ## The six argument arrays, and the kernel's arrangement of the result -/

abbrev aX (c : Dev nD) : Mat 10000 128 := m ((c : Thread nD τ).loc main_arg0)
abbrev aAdj (c : Dev nD) : Mat 10000 10000 := m ((c : Thread nD τ).loc main_arg1)
abbrev aW1 (c : Dev nD) : Mat 128 64 := m ((c : Thread nD τ).loc main_arg2)
abbrev aB1 (c : Dev nD) : Row 64 := m ((c : Thread nD τ).loc main_arg3)
abbrev aW2 (c : Dev nD) : Mat 64 64 := m ((c : Thread nD τ).loc main_arg4)
abbrev aB2 (c : Dev nD) : Row 64 := m ((c : Thread nD τ).loc main_arg5)

/-- The output layer `adj·s2 + b2` of the arrays on core `c`. -/
abbrev oOf (c : Dev nD) : Mat 10000 64 := o (aX m c) (aAdj m c) (aW1 m c) (aB1 m c) (aW2 m c) (aB2 m c)

/-- The kernel's arrangement: the output layer less (the logarithm of the row's sum of exponentials, plus the row's
    largest entry). -/
def Gk (c : Dev nD) : Mat 10000 64 := fun i =>
  oOf m c i - (Ideal.log (∑ k : Fin 64, Ideal.exp (oOf m c (ix2 (i 0) k) - rowTop (oOf m c) (i 0))) + rowTop (oOf m c) (i 0))

/-! ## The scratch buffers are the two supports -/

/-- The first scratch is `x·W1`. -/
theorem s1v_eq (c : Dev nD) : (s1v m c : Mat 10000 64) = s1 (aX m c) (aW1 m c) := by
  funext i
  obtain ⟨k, j, rfl⟩ : ∃ (k : Fin 10000) (j : Fin 64), i = ix2 k j := ⟨i 0, i 1, eq_ix2 i⟩
  unfold s1v
  refine (pay1_apply (iblk m c 0 t0) (iblk m c 2 t0) k j).trans ?_
  unfold s1
  refine Finset.sum_congr rfl fun a _ => ?_
  exact congrArg₂ (· * ·) (iblk0_apply m c t0 (ix2 k a) (ix2 k a) (by simp) rfl) (iblk2_apply m c t0 (ix2 a j) (ix2 a j) (by simp) rfl)

/-- The second scratch after the first pass is `h·W2`. -/
theorem s2v_eq (c : Dev nD) : (s2v m c : Mat 10000 64) = s2 (aX m c) (aAdj m c) (aW1 m c) (aB1 m c) (aW2 m c) := by
  funext i
  obtain ⟨r, q, rfl⟩ : ∃ (r : Fin 10000) (q : Fin 64), i = ix2 r q := ⟨i 0, i 1, eq_ix2 i⟩
  have hr : r.val / 400 < 25 := by have := r.isLt; omega
  have eA : ∀ k : Fin 10000, (iblk m c 1 (rowPt r) : Vec Ideal S400x10000 .f32) (ix2 (⟨r.val % 400, Nat.mod_lt _ (by omega)⟩ : Fin 400) k) = aAdj m c (ix2 r k) := fun k =>
    iblk1_apply m c (rowPt r) _ (ix2 r k) (by show r.val = 400 * ((r.val / 400) % 25) + r.val % 400; omega) rfl
  have eB : ∀ j : Fin 64, (iblk m c 3 (rowPt r) : Vec Ideal S1x64 .f32) (ix2 (0 : Fin 1) j) = aB1 m c (ix1 j) := fun j => iblk3_apply m c (rowPt r) 0 j
  have eW : ∀ (j q : Fin 64), (iblk m c 4 (rowPt r) : Vec Ideal S64x64 .f32) (ix2 j q) = aW2 m c (ix2 j q) := fun j q =>
    iblk4_apply m c (rowPt r) (ix2 j q) (ix2 j q) (by simp) rfl
  have eS : ∀ (k : Fin 10000) (j : Fin 64), (s1v m c : Mat 10000 64) (ix2 k j) = s1 (aX m c) (aW1 m c) (ix2 k j) := fun k j => congrFun (s1v_eq m c) _
  show s2blk m c (rowPt r) (ix2 (⟨r.val % 400, Nat.mod_lt _ (by omega)⟩ : Fin 400) q) = _
  unfold s2blk
  refine (pay2_apply (iblk m c 1 (rowPt r)) (s1v m c) (iblk m c 3 (rowPt r)) (iblk m c 4 (rowPt r)) _ q).trans ?_
  unfold s2 h
  refine Finset.sum_congr rfl fun j _ => ?_
  rw [eB j, eW j q]
  refine congrArg (fun s => max (s + aB1 m c (ix1 j)) 0 * aW2 m c (ix2 j q)) (Finset.sum_congr rfl fun k _ => ?_)
  rw [eA k, eS k j]

/-! ## The output blocks -/

/-- The panel's output layer, entry by entry, when the panel, the scratch and the bias row are read off whole arrays. -/
theorem panelOut_at (A : Vec Ideal S400x10000 .f32) (s : Vec Ideal S10000x64 .bf16) (b : Vec Ideal S1x64 .f32)
    (adj : Mat 10000 10000) (s2' : Mat 10000 64) (b2 : Row 64) (r : Fin 400) (R : Fin 10000)
    (eA : ∀ k : Fin 10000, A (ix2 r k) = adj (ix2 R k)) (eS : ∀ (k : Fin 10000) (j : Fin 64), s (ix2 k j) = s2' (ix2 k j))
    (eB : ∀ j : Fin 64, b (ix2 (0 : Fin 1) j) = b2 (ix1 j)) (k : Fin 64) :
    panelOut A s b (ix2 r k) = (∑ k' : Fin 10000, adj (ix2 R k') * s2' (ix2 k' k)) + b2 (ix1 k) := by
  unfold panelOut
  show (∑ k' : Fin 10000, A (ix2 r k') * s (ix2 k' k)) + b (ix2 (0 : Fin 1) k) = _
  rw [eB k]
  refine congrArg (· + b2 (ix1 k)) (Finset.sum_congr rfl fun k' _ => ?_)
  rw [eA k', eS k' k]

/-- Entry `y` of the output block of a point `t` of the second pass is the kernel's arrangement at row
    `400·(t − 25) + y₀`, column `y₁`. -/
theorem outblk_at (c : Dev nD) (t : Fin cfg0.N) (ht : 25 ≤ t.val) (y : S400x64.Idx) (i : S10000x64.Idx)
    (h0 : (i 0).val = 400 * (t.val - 25) + (y 0).val) (h1 : (i 1).val = (y 1).val) :
    (outblk m c t : Mat 400 64) y = Gk m c i := by
  obtain ⟨r, q, rfl⟩ : ∃ (r : Fin 400) (q : Fin 64), y = ix2 r q := ⟨y 0, y 1, eq_ix2 y⟩
  obtain ⟨R, Q, rfl⟩ : ∃ (R : Fin 10000) (Q : Fin 64), i = ix2 R Q := ⟨i 0, i 1, eq_ix2 i⟩
  obtain rfl : q = Q := (Fin.ext h1).symm
  have hN : t.val < 50 := lt_of_lt_of_eq t.isLt (show cfg0.N = 50 from N_0)
  have hR : R.val = 400 * (t.val % 25) + r.val := by have : R.val = 400 * (t.val - 25) + r.val := h0; omega
  have eA : ∀ k : Fin 10000, (iblk m c 1 t : Vec Ideal S400x10000 .f32) (ix2 r k) = aAdj m c (ix2 R k) := fun k =>
    iblk1_apply m c t _ (ix2 R k) hR rfl
  have eB : ∀ j : Fin 64, (iblk m c 5 t : Vec Ideal S1x64 .f32) (ix2 (0 : Fin 1) j) = aB2 m c (ix1 j) := fun j => iblk5_apply m c t 0 j
  have eS : ∀ (k : Fin 10000) (j : Fin 64), (s2v m c : Mat 10000 64) (ix2 k j) = s2 (aX m c) (aAdj m c) (aW1 m c) (aB1 m c) (aW2 m c) (ix2 k j) := fun k j => congrFun (s2v_eq m c) _
  have hO : ∀ k : Fin 64, panelOut (iblk m c 1 t) (s2v m c) (iblk m c 5 t) (ix2 r k) = oOf m c (ix2 R k) := fun k =>
    panelOut_at (iblk m c 1 t) (s2v m c) (iblk m c 5 t) (aAdj m c) _ (aB2 m c) r R eA eS eB k
  have hTop : rowTop (panelOut (iblk m c 1 t) (s2v m c) (iblk m c 5 t)) r = rowTop (oOf m c) R :=
    congrArg (Finset.univ.fold max ⊥) (funext hO)
  unfold outblk
  refine (pay3_apply (iblk m c 1 t) (s2v m c) (iblk m c 5 t) r q).trans ?_
  unfold Gk
  rw [hTop, hO q]
  refine congrArg (fun s => oOf m c (ix2 R q) - (Ideal.log s + rowTop (oOf m c) R)) (Finset.sum_congr rfl fun k _ => ?_)
  rw [hO k]

/-! ## From blocks to the array -/

/-- What a point of the second pass writes back is its block of the kernel's arrangement. -/
theorem flushed_eq (c : Dev nD) (t : Fin cfg0.N) (hf : (cfg0.win 6).flush t = true) :
    (dats m 0 c).flushed 6 t = ((cfg0.win 6).blk t).view.read (Elt Ideal) (Gk m c) := by
  have h25 := (flush6 t).mp hf
  show (cfg0.win 6).cut (grid0.coords t) ((dats m 0 c).after 6 t) = _
  rw [after0_6]
  funext y
  rw [View.read_apply]
  show outblk m c t y = Gk m c (((cfg0.win 6).blk t).view.emb y)
  refine outblk_at m c t h25 y _ ?_ ?_
  · show win0_6.index t 0 * 400 + 1 * (y 0).val = 400 * (t.val - 25) + (y 0).val
    rw [(idx_out t h25).1]; omega
  · show win0_6.index t 1 * 64 + 1 * (y 1).val = (y 1).val
    rw [(idx_out t h25).2]; omega

/-- An index of the output array is in point `t`'s block iff each coordinate is in the block's range. -/
theorem mem_blk (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- The output array after the run is the kernel's arrangement: row `R` lies in the block of point `25 + R / 400`. -/
theorem final (c : Dev nD) : (dats m 0 c).arrAt 6 cfg0.N = Gk m c :=
  (dats m 0 c).arrAt_eq_of_cover 6 (Gk m c) (flushed_eq m c) fun i => by
    have hi0 : (i 0).val < 10000 := (i 0).isLt
    have hi1 : (i 1).val < 64 := (i 1).isLt
    let t : Fin cfg0.N := ⟨25 + (i 0).val / 400, by rw [show cfg0.N = 50 from N_0]; omega⟩
    have h25 : 25 ≤ t.val := Nat.le_add_right _ _
    refine ⟨t, (flush6 t).mpr h25, ?_⟩
    rw [mem_blk]
    intro a
    match a with
    | ⟨0, _⟩ => show win0_6.index t 0 * 400 ≤ (i 0).val ∧ (i 0).val < win0_6.index t 0 * 400 + 400
                rw [(idx_out t h25).1]; show (25 + (i 0).val / 400 - 25) * 400 ≤ (i 0).val ∧ (i 0).val < (25 + (i 0).val / 400 - 25) * 400 + 400; omega
    | ⟨1, _⟩ => show win0_6.index t 1 * 64 ≤ (i 1).val ∧ (i 1).val < win0_6.index t 1 * 64 + 64
                rw [(idx_out t h25).2]; omega

/-! ## The run, read -/

/-- Every weakly fair execution ends with the result array at the kernel's arrangement and the six arguments unchanged. -/
theorem run : θ_run defs (onTc (τ := τ) (main (F := Ideal))) ⟨m, fun _ => 0, ρ⟩ fun r => ∀ c : Dev nD,
      r.2.mem ((c : Thread nD τ).loc main_v2) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

end Cert.KernelIdeal.KValue

end
-- ==== Proof.RefRun.lean ====
/-
  The reference program's run, read back through named stages.

  The reference is a straight line of 28 host operations: thirteen compute the output layer `o = adj·(h·W2) + b2`
  with `h = max (adj·(x·W1) + b1, 0)`, and fifteen more are the row-wise log-softmax of `o`.  The log-softmax reads
  `o` three times, so the composed term of the whole line repeats the output layer's term three times (and the hidden
  layer's six).  Here the result is stated instead as `logSoftmaxRows (outLayer …)`: the line is split after the
  thirteenth operation, the second part is read back over ANY contents of the buffers (the output layer's buffer a
  variable), and the first part is read back once.
-/
import proofs.«131716_g83657372991743_cont_sun_c4_273_6_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The named stages -/

/-- The hidden layer as the host computes it: `max (adj·(x·W1) + b1, 0)`, the bias laid as a row and broadcast down
    the rows, the zero a broadcast scalar. -/
def hidden (x : (⟨S10000x128, .f32⟩ : BufTy).Contents (Elt F)) (adj : (⟨S10000x10000, .f32⟩ : BufTy).Contents (Elt F)) (W1 : (⟨S128x64, .f32⟩ : BufTy).Contents (Elt F)) (b1 : (⟨S64, .f32⟩ : BufTy).Contents (Elt F)) :
    (⟨S10000x64, .f32⟩ : BufTy).Contents (Elt F) :=
  maximumf
    (addf
      (Host.dotGeneral dot_S10000x10000_S10000x64_S10000x64_1_0_0_1_n_n none adj
        (Host.dotGeneral dot_S10000x128_S128x64_S10000x64_1_0_0_1_n_n none x W1))
      (broadcastInDim S10000x64 ![0, 1] bcast_S1x64_S10000x64_0_1 (broadcastInDim S1x64 ![1] bcast_S64_S1x64_1 b1)))
    (broadcastInDim S10000x64 ![] bcast_S_S10000x64 (constant S_ .f32 0x00000000#32))

/-- The output layer before normalisation as the host computes it: `adj·(h·W2) + b2`. -/
def outLayer (x : (⟨S10000x128, .f32⟩ : BufTy).Contents (Elt F)) (adj : (⟨S10000x10000, .f32⟩ : BufTy).Contents (Elt F)) (W1 : (⟨S128x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S10000x64, .f32⟩ : BufTy).Contents (Elt F) :=
  addf
    (Host.dotGeneral dot_S10000x10000_S10000x64_S10000x64_1_0_0_1_n_n none adj
      (Host.dotGeneral dot_S10000x64_S64x64_S10000x64_1_0_0_1_n_n none (hidden x adj W1 b1) W2))
    (broadcastInDim S10000x64 ![0, 1] bcast_S1x64_S10000x64_0_1 (broadcastInDim S1x64 ![1] bcast_S64_S1x64_1 b2))

/-- The host's row maximum of `z` (a reduce with a maximum body from `−∞`, joined once more with `−∞`), kept as a
    column and broadcast back over the rows' entries. -/
def rowMaxBack (z : (⟨S10000x64, .f32⟩ : BufTy).Contents (Elt F)) : (⟨S10000x64, .f32⟩ : BufTy).Contents (Elt F) :=
  broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x64_S10000_d1 h_S_)))

/-- The host's row-wise log-softmax of `z`: `(z − m) − log (Σ exp (z − m))`, `m` the row maximum broadcast back, the
    row sum from `0` kept as a column and its logarithm broadcast back. -/
def logSoftmaxRows (z : (⟨S10000x64, .f32⟩ : BufTy).Contents (Elt F)) : (⟨S10000x64, .f32⟩ : BufTy).Contents (Elt F) :=
  subf (subf z (rowMaxBack z))
    (broadcastInDim S10000x64 ![0, 1] bcast_S10000x1_S10000x64_0_1 (Host.log (broadcastInDim S10000x1 ![0] bcast_S10000_S10000x1_0
      (Host.reduceAdd (Host.exp (subf z (rowMaxBack z))) (constant S_ .f32 0x00000000#32) reducesTo_S10000x64_S10000_d1 h_S_))))

/-- The reference's result as a term of its six arguments: the row-wise log-softmax of the output layer. -/
def refTerm (x : (⟨S10000x128, .f32⟩ : BufTy).Contents (Elt F)) (adj : (⟨S10000x10000, .f32⟩ : BufTy).Contents (Elt F)) (W1 : (⟨S128x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S10000x64, .f32⟩ : BufTy).Contents (Elt F) :=
  logSoftmaxRows (outLayer x adj W1 b1 W2 b2)

/-! ## The operations -/

/-- The first thirteen operations: up to the output layer `main_v10` (the call of `relu` inlined at its place). -/
abbrev opsA : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v4) (TRef.of (T := ⟨S10000x64, .f32⟩) main_call0_v0) (TRef.of (T := ⟨S10000x64, .f32⟩) main_v5) maximumf,
    binary main_v5 main_arg4 main_v6 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)) ]

/-- The last fifteen operations: the call of `log_softmax` on `main_v10`, inlined. -/
abbrev opsB : List (HloOp τ sig (Elt F)) :=
  [ TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

/-- @main's 28 operations, in order. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v4) (TRef.of (T := ⟨S10000x64, .f32⟩) main_call0_v0) (TRef.of (T := ⟨S10000x64, .f32⟩) main_v5) maximumf,
    binary main_v5 main_arg4 main_v6 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

theorem ops_eq : (ops : List (HloOp τ sig (Elt F))) = opsA ++ opsB := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The fold, stage by stage -/

/-- Two lines' folds compose. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After the first thirteen operations the output layer's buffer holds `outLayer` of the arguments. -/
theorem opsA_v10 (V : Valuation τ sig (Elt F)) :
    after opsA V (Proc.devRef .tc main_v10)
      = outLayer (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results
  rfl

/-- Contents moved to a typed reference's buffer and back are unchanged. -/
theorem ofBuf_toBuf {T : BufTy} (x : TRef sig T) (v : T.Contents (Elt F)) : x.ofBuf (x.toBuf v) = v := by
  obtain ⟨r, h, _, _⟩ := x
  subst h
  rfl

/-- At the output layer's literal buffer the typed reference's transport is the identity. -/
theorem ofBuf_v10 (v : (Proc.devRef (τ := τ) .tc main_v10).ty.Contents (Elt F)) :
    (TRef.of (T := ⟨S10000x64, .f32⟩) main_v10).ofBuf v = v := rfl

/-- At the result's literal buffer the typed reference's transport is the identity. -/
theorem toBuf_v11 (v : (⟨S10000x64, .f32⟩ : BufTy).Contents (Elt F)) :
    (TRef.of (T := ⟨S10000x64, .f32⟩) main_v11).toBuf v = v := rfl

/-- From any contents, after the last fifteen operations the result buffer holds the row-wise log-softmax of what
    the output layer's buffer held. -/
theorem opsB_v11 (W : Valuation τ sig (Elt F)) :
    after opsB W (Proc.devRef .tc main_v11) = logSoftmaxRows (W (Proc.devRef .tc main_v10)) := by
  after_results
  simp only [ofBuf_toBuf, ofBuf_v10, toBuf_v11]
  rfl

/-- After the whole line the result buffer holds `refTerm` of the arguments: the line is its two parts in turn. -/
theorem ops_v11 (V : Valuation τ sig (Elt F)) :
    after ops V (Proc.devRef .tc main_v11)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append]
  exact (opsB_v11 _).trans (congrArg logSoftmaxRows (opsA_v10 V))

/-! No operation writes an argument's buffer. -/
theorem ops_arg0 (V : Valuation τ sig (Elt F)) :
    after ops V (Proc.devRef .tc main_arg0) = V (Proc.devRef .tc main_arg0) := by
  after_results
theorem ops_arg1 (V : Valuation τ sig (Elt F)) :
    after ops V (Proc.devRef .tc main_arg1) = V (Proc.devRef .tc main_arg1) := by
  after_results
theorem ops_arg2 (V : Valuation τ sig (Elt F)) :
    after ops V (Proc.devRef .tc main_arg2) = V (Proc.devRef .tc main_arg2) := by
  after_results
theorem ops_arg3 (V : Valuation τ sig (Elt F)) :
    after ops V (Proc.devRef .tc main_arg3) = V (Proc.devRef .tc main_arg3) := by
  after_results
theorem ops_arg4 (V : Valuation τ sig (Elt F)) :
    after ops V (Proc.devRef .tc main_arg4) = V (Proc.devRef .tc main_arg4) := by
  after_results
theorem ops_arg5 (V : Valuation τ sig (Elt F)) :
    after ops V (Proc.devRef .tc main_arg5) = V (Proc.devRef .tc main_arg5) := by
  after_results

/-! ## The run -/

/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (ops_v11 _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _)⟩)
    (run_seq scopedRefs_eq scopedSems_eq defs main (fun _ => ops) main_eq (fun _ => ops_sub) m ρ)

end Cert.RefSide

end
-- ==== Proof.LibHostLogSoftmaxRow.lean ====
/-
  The host's row-wise log-softmax read at an entry, on the extended reals.

  The host spells it, for an `[a, b]` array `x`: the row maximum by a reduce with a maximum body from `−∞`, joined once
  more with `−∞`; kept as an `[a, 1]` column and broadcast back over the lanes; subtracted; exponentiated; summed over
  each row from `0`; kept as a column; its logarithm broadcast back and subtracted. At entry `(p, c)` that is
  `(x (p, c) − m) − log (Σ_k exp (x (p, k) − m))` with `m` the fold of `max` from `−∞` over row `p`.
-/
import proofs.«131716_g83657372991743_cont_sun_c4_273_6_alg».proof.Proof.LibLogSoftmaxRow
import Idealize.ShloMosaic.PureOps.Reduce

noncomputable section

namespace Idealize.ShloMosaic.HostLogSoftmaxRow

open Idealize.ShloMosaic Idealize.ShloMosaic.ValueIdx Idealize.ShloMosaic.LogSoftmaxRow

variable {a b : ℕ}

/-- The reduced index `p` with lane `k` put back is `(p, k)`. -/
theorem lift_ix1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- Joining with `−∞` changes nothing. -/
theorem max_neg_inf (y : EReal) : max (Ideal.ofBits .f32 0xFF800000#32) y = y := by
  rw [ofBits_neg_inf]; exact max_eq_right bot_le

/-- The host's row maximum from `−∞`, joined with `−∞`, kept as a column and broadcast back, reads at `(p, c)` the
    row's largest entry. -/
theorem hostTop_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf x (constant (F := Ideal) ⟨0, ![]⟩ .f32 0xFF800000#32) h' hu))) (ix2 p c)
      = rowTop x p := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  rw [maximumf_apply, broadcastInDim_apply ![] hb0 _ (ix1 p) ix0 (fun ax => ax.elim0)]
  rw [Host.reduce_eq_fold_single FloatOps.maximumf x _ h' h hu]
  show max (Ideal.ofBits .f32 0xFF800000#32) ((Finset.univ : Finset (Fin b)).fold max (Ideal.ofBits .f32 0xFF800000#32) (x ∘ h.lift (ix1 p))) = _
  rw [max_neg_inf, ofBits_neg_inf]
  unfold rowTop
  refine congrArg (fun f => (Finset.univ : Finset (Fin b)).fold max ⊥ f) (funext fun k => ?_)
  exact congrArg x (lift_ix1 h p k)

/-- The host's row sum from `0` of an array `w`, kept as a column, its logarithm broadcast back, reads at `(p, c)` the
    logarithm of row `p`'s sum. -/
theorem hostLogSum_apply (w : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (Host.log (broadcastInDim ⟨2, ![a, 1]⟩ ![0] hb1
      (Host.reduceAdd w (constant (F := Ideal) ⟨0, ![]⟩ .f32 0x00000000#32) h' hu))) (ix2 p c)
      = Ideal.log (∑ k : Fin b, w (ix2 p k)) := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  show Ideal.log (broadcastInDim ⟨2, ![a, 1]⟩ ![0] hb1 (Host.reduceAdd w (constant (F := Ideal) ⟨0, ![]⟩ .f32 0x00000000#32) h' hu) (ix2 p (0 : Fin 1))) = _
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  refine congrArg Ideal.log ?_
  show Ideal.hostReduceAdd h' w (Ideal.ofBits .f32 0x00000000#32) (ix1 p) = _
  rw [Ideal.hostReduceAdd_single h' h, Ideal.ofBits_zero_f32, zero_add]
  exact Finset.sum_congr rfl fun k _ => congrArg w (lift_ix1 h p k)

/-- The host's whole row-wise log-softmax at entry `(p, c)`. -/
theorem hostLogSoftmax_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    subf (subf x (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))))
      (broadcastInDim ⟨2, ![a, b]⟩ ![0, 1] hb2 (Host.log (broadcastInDim ⟨2, ![a, 1]⟩ ![0] hb1
        (Host.reduceAdd (Host.exp (subf x (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf x (constant (F := Ideal) ⟨0, ![]⟩ .f32 0xFF800000#32) h' hu))))))
          (constant (F := Ideal) ⟨0, ![]⟩ .f32 0x00000000#32) h' hu)))) (ix2 p c)
      = (x (ix2 p c) - rowTop x p) - Ideal.log (∑ k : Fin b, Ideal.exp (x (ix2 p k) - rowTop x p)) := by
  rw [subf_apply, subf_apply, hostTop_apply x h' h hu hb0 hb1 hb2 p c, hostLogSum_apply _ h' h hu hb1 hb2 p c]
  refine congrArg (fun s => (x (ix2 p c) - rowTop x p) - Ideal.log s) (Finset.sum_congr rfl fun k _ => ?_)
  show Ideal.exp (subf x _ (ix2 p k)) = _
  rw [subf_apply, hostTop_apply x h' h hu hb0 hb1 hb2 p k]

end Idealize.ShloMosaic.HostLogSoftmaxRow

end
-- ==== Proof.RefValue.lean ====
/-
  The reference's result term is the specification.

  `refTerm` is the host's spelling of the two-layer graph convolution followed by a row-wise log-softmax.  Entry by
  entry on the extended reals: each `dot_general` is the plain sum over the contracted coordinate; each bias, laid as a
  `[1, 64]` row and broadcast down the rows, adds its entry `c` at `(p, c)`; the rectifier's zero is the broadcast
  scalar `0`; and the log-softmax chain reads `(o (p, c) − m) − log (Σ_k exp (o (p, k) − m))` with `m` row `p`'s
  largest entry.
-/
import proofs.«131716_g83657372991743_cont_sun_c4_273_6_alg».proof.Proof.RefRun
import proofs.«131716_g83657372991743_cont_sun_c4_273_6_alg».proof.Proof.Spec
import proofs.«131716_g83657372991743_cont_sun_c4_273_6_alg».proof.Proof.LibHostLogSoftmaxRow
import proofs.«131716_g83657372991743_cont_sun_c4_273_6_alg».proof.Proof.LibPlainDot
import proofs.«131716_g83657372991743_cont_sun_c4_273_6_alg».proof.Proof.LibRowBroadcast

noncomputable section

namespace Cert.RefSide

open Cert.ReferenceIdeal Cert.ReferenceIdeal.Gen Idealize.ShloMosaic Idealize.ShloMosaic.ValueIdx
open scoped BigOperators

/-! The dimension record of `x·W1`: it contracts the left operand's second axis with the right operand's first. -/
theorem dotXW_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dotXW_l1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dotXW_r0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dotXW_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! The dimension record of `adj·s`: it contracts the left operand's second axis with the right operand's first. -/
theorem dotAdj_l0 (i : S10000x64.Idx) (q : dot_S10000x10000_S10000x64_S10000x64_1_0_0_1_n_n.contr.Idx) :
    (dot_S10000x10000_S10000x64_S10000x64_1_0_0_1_n_n.lhsIdx i q 0).val = (i 0).val := by
  unfold DotDims.lhsIdx
  rw [dif_neg (show ¬(0 : Fin S10000x10000.rank) ∈ dot_S10000x10000_S10000x64_S10000x64_1_0_0_1_n_n.lhsBatch by decide), dif_pos (show (0 : Fin S10000x10000.rank) ∈ dot_S10000x10000_S10000x64_S10000x64_1_0_0_1_n_n.lhsNonContracting by decide)]
  rfl
theorem dotAdj_l1 (i : S10000x64.Idx) (q : dot_S10000x10000_S10000x64_S10000x64_1_0_0_1_n_n.contr.Idx) :
    (dot_S10000x10000_S10000x64_S10000x64_1_0_0_1_n_n.lhsIdx i q 1).val = (q ⟨0, by decide⟩).val :=
  dot_S10000x10000_S10000x64_S10000x64_1_0_0_1_n_n.lhsIdx_val_of_single rfl i q
theorem dotAdj_r0 (i : S10000x64.Idx) (q : dot_S10000x10000_S10000x64_S10000x64_1_0_0_1_n_n.contr.Idx) :
    (dot_S10000x10000_S10000x64_S10000x64_1_0_0_1_n_n.rhsIdx i q 0).val = (q ⟨0, by decide⟩).val :=
  dot_S10000x10000_S10000x64_S10000x64_1_0_0_1_n_n.rhsIdx_val_of_single rfl i q
theorem dotAdj_r1 (i : S10000x64.Idx) (q : dot_S10000x10000_S10000x64_S10000x64_1_0_0_1_n_n.contr.Idx) :
    (dot_S10000x10000_S10000x64_S10000x64_1_0_0_1_n_n.rhsIdx i q 1).val = (i 1).val := by
  unfold DotDims.rhsIdx
  rw [dif_neg (show ¬(1 : Fin S10000x64.rank) ∈ dot_S10000x10000_S10000x64_S10000x64_1_0_0_1_n_n.rhsBatch by decide), dif_pos (show (1 : Fin S10000x64.rank) ∈ dot_S10000x10000_S10000x64_S10000x64_1_0_0_1_n_n.rhsNonContracting by decide)]
  rfl

/-! The dimension record of `h·W2`: it contracts the left operand's second axis with the right operand's first. -/
theorem dotHW_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotHW_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotHW_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotHW_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

variable (x : Spec.Mat 10000 128) (adj : Spec.Mat 10000 10000) (W1 : Spec.Mat 128 64) (b1 : Spec.Row 64)
  (W2 : Spec.Mat 64 64) (b2 : Spec.Row 64)

/-- A flat `[64]` bias laid as a row and broadcast down the rows reads its entry `c` at `(p, c)`. -/
theorem bias_apply (b : Spec.Row 64) (p : Fin 10000) (c : Fin 64) :
    broadcastInDim S10000x64 ![0, 1] bcast_S1x64_S10000x64_0_1 (broadcastInDim S1x64 ![1] bcast_S64_S1x64_1 b) (ix2 p c)
      = b (ix1 c) :=
  (RowBroadcast.broadcastInDim_row_apply ![0, 1] rfl rfl bcast_S1x64_S10000x64_0_1 _ p c).trans
    (RowBroadcast.broadcastInDim_flat_apply ![1] rfl bcast_S64_S1x64_1 b 0 c)

/-- The broadcast scalar zero reads `0` everywhere. -/
theorem zero_apply (i : S10000x64.Idx) :
    broadcastInDim S10000x64 ![] bcast_S_S10000x64 (constant (F := Ideal) S_ .f32 0x00000000#32) i = (0 : EReal) :=
  (broadcastInDim_apply ![] bcast_S_S10000x64 _ i ix0 (fun a => a.elim0)).trans
    ((constant_apply _ _).trans Ideal.ofBits_zero_f32)

/-- The host's hidden layer at entry `(p, c)` is the specification's. -/
theorem hidden_apply (p : Fin 10000) (c : Fin 64) :
    hidden (F := Ideal) x adj W1 b1 (ix2 p c) = Spec.h x adj W1 b1 (ix2 p c) := by
  unfold hidden
  rw [maximumf_apply, addf_apply, zero_apply, bias_apply,
    PlainDot.dotGeneral_apply dot_S10000x10000_S10000x64_S10000x64_1_0_0_1_n_n none rfl rfl dotAdj_l0 dotAdj_l1 dotAdj_r0 dotAdj_r1 adj _ p c]
  change _ = max ((∑ k : Fin 10000, adj (ix2 p k) * Spec.s1 x W1 (ix2 k c)) + b1 (ix1 c)) 0
  refine congrArg (fun s => max (s + b1 (ix1 c)) 0) (Finset.sum_congr rfl fun k _ => ?_)
  refine congrArg (fun t => adj (ix2 p k) * t) ?_
  exact PlainDot.dotGeneral_apply dot_S10000x128_S128x64_S10000x64_1_0_0_1_n_n none rfl rfl dotXW_l0 dotXW_l1 dotXW_r0 dotXW_r1 x W1 k c

/-- The host's output layer at entry `(p, c)` is the specification's. -/
theorem outLayer_apply (p : Fin 10000) (c : Fin 64) :
    outLayer (F := Ideal) x adj W1 b1 W2 b2 (ix2 p c) = Spec.o x adj W1 b1 W2 b2 (ix2 p c) := by
  unfold outLayer
  rw [addf_apply, bias_apply,
    PlainDot.dotGeneral_apply dot_S10000x10000_S10000x64_S10000x64_1_0_0_1_n_n none rfl rfl dotAdj_l0 dotAdj_l1 dotAdj_r0 dotAdj_r1 adj _ p c]
  change _ = (∑ k : Fin 10000, adj (ix2 p k) * Spec.s2 x adj W1 b1 W2 (ix2 k c)) + b2 (ix1 c)
  refine congrArg (fun s => s + b2 (ix1 c)) (Finset.sum_congr rfl fun k _ => ?_)
  refine congrArg (fun t => adj (ix2 p k) * t) ?_
  refine (PlainDot.dotGeneral_apply dot_S10000x64_S64x64_S10000x64_1_0_0_1_n_n none rfl rfl dotHW_l0 dotHW_l1 dotHW_r0 dotHW_r1 (hidden (F := Ideal) x adj W1 b1) W2 k c).trans ?_
  change _ = ∑ j : Fin 64, Spec.h x adj W1 b1 (ix2 k j) * W2 (ix2 j c)
  exact Finset.sum_congr rfl fun j _ => congrArg (fun t => t * W2 (ix2 j c)) (hidden_apply x adj W1 b1 k j)

/-- The host's output layer is the specification's. -/
theorem outLayer_eq : outLayer (F := Ideal) x adj W1 b1 W2 b2 = Spec.o x adj W1 b1 W2 b2 := by
  funext i
  obtain ⟨p, c, rfl⟩ : ∃ p c, i = ix2 p c := ⟨i 0, i 1, eq_ix2 i⟩
  exact outLayer_apply x adj W1 b1 W2 b2 p c

/-- The host's row-wise log-softmax of an array is the specification's shape of it, entry by entry. -/
theorem logSoftmaxRows_apply (z : Spec.Mat 10000 64) (p : Fin 10000) (c : Fin 64) :
    logSoftmaxRows (F := Ideal) z (ix2 p c)
      = (z (ix2 p c) - LogSoftmaxRow.rowTop z p) - Ideal.log (∑ k : Fin 64, Ideal.exp (z (ix2 p k) - LogSoftmaxRow.rowTop z p)) := by
  unfold logSoftmaxRows rowMaxBack
  exact HostLogSoftmaxRow.hostLogSoftmax_apply z reducesTo_S10000x64_S10000_d1 (by decide) h_S_ bcast_S_S10000
    bcast_S10000_S10000x1_0 bcast_S10000x1_S10000x64_0_1 p c

/-- The reference's result term of its six arguments is the specification `G` of them. -/
theorem refTerm_eq_G : refTerm (F := Ideal) x adj W1 b1 W2 b2 = Spec.G x adj W1 b1 W2 b2 := by
  unfold refTerm
  rw [outLayer_eq]
  funext i
  obtain ⟨p, c, rfl⟩ : ∃ p c, i = ix2 p c := ⟨i 0, i 1, eq_ix2 i⟩
  exact logSoftmaxRows_apply (Spec.o x adj W1 b1 W2 b2) p c

end Cert.RefSide

end
-- ==== Proof.LibRealEntries.lean ====
/-
  Extended reals that are real numbers, and the log-softmax rearrangement among them.

  An extended real is "real" when it is the image of a real number. Reals are closed under addition, subtraction,
  multiplication, the larger of two, and finite sums; the largest entry of a nonempty finite family of reals (the fold of
  `max` from `−∞`) is real and bounds every entry; the exponential of a real is a positive real, a nonempty finite
  sum of positive reals is a positive real, and the logarithm of a positive real is real.

  The rearrangement: for a nonempty finite family `z` of reals with largest entry `m` and
  `S = Σ_k exp (z k − m)`, `z c − (log S + m) = (z c − m) − log S`. On the extended reals subtraction does not
  distribute over a sum at the infinities; among reals both sides are the real number `z c − m − log S`.
-/
import Idealize.ShloMosaic.PureOps.Ideal.Laws

noncomputable section

namespace Idealize.ShloMosaic.RealEntries

open scoped BigOperators

/-- An extended real that is (the image of) a real number. -/
def IsReal (a : EReal) : Prop := ∃ r : ℝ, a = (r : EReal)

/-- An extended real that is a positive real number. -/
def IsPosReal (a : EReal) : Prop := ∃ r : ℝ, 0 < r ∧ a = (r : EReal)

theorem isReal_coe (r : ℝ) : IsReal (r : EReal) := ⟨r, rfl⟩

theorem isReal_zero : IsReal 0 := ⟨0, rfl⟩

theorem isReal_iff {a : EReal} : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

theorem IsPosReal.isReal {a : EReal} (h : IsPosReal a) : IsReal a := by
  obtain ⟨r, _, rfl⟩ := h
  exact ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The embedding of the reals carries the larger of two reals to the larger of their images. -/
theorem coe_max (r s : ℝ) : ((max r s : ℝ) : EReal) = max (r : EReal) (s : EReal) :=
  (EReal.coe_strictMono.monotone).map_max

theorem IsReal.max {a b : EReal} (ha : IsReal a) (hb : IsReal b) : IsReal (max a b) := by
  obtain ⟨r, rfl⟩ := ha
  obtain ⟨s, rfl⟩ := hb
  exact ⟨Max.max r s, (coe_max r s).symm⟩

/-- The embedding of the reals carries a finite sum to the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite index type is real. -/
theorem isReal_sum_univ {ι : Type*} [Fintype ι] (f : ι → EReal) (h : ∀ k, IsReal (f k)) : IsReal (∑ k, f k) :=
  isReal_sum Finset.univ f fun k _ => h k

/-- A nonempty finite sum of positive reals is a positive real. -/
theorem isPosReal_sum {ι : Type*} (s : Finset ι) (hs : s.Nonempty) (f : ι → EReal) (h : ∀ k ∈ s, IsPosReal (f k)) :
    IsPosReal (∑ k ∈ s, f k) := by
  classical
  have hg : ∀ k : ι, ∃ r : ℝ, k ∈ s → (0 < r ∧ f k = (r : EReal)) := fun k => by
    by_cases hk : k ∈ s
    · obtain ⟨r, hr, e⟩ := h k hk
      exact ⟨r, fun _ => ⟨hr, e⟩⟩
    · exact ⟨0, fun hk' => absurd hk' hk⟩
  choose g hg using hg
  refine ⟨∑ k ∈ s, g k, Finset.sum_pos (fun k hk => (hg k hk).1) hs, ?_⟩
  rw [coe_sum]
  exact Finset.sum_congr rfl fun k hk => (hg k hk).2

/-- Every entry is at most the fold of `max` from `−∞`. -/
theorem le_foldMax {ι : Type*} [Fintype ι] (z : ι → EReal) (c : ι) :
    z c ≤ (Finset.univ : Finset ι).fold max ⊥ z :=
  (Finset.le_fold_max _).mpr (Or.inr ⟨c, Finset.mem_univ c, le_refl _⟩)

/-- The fold of `max` from `−∞` over a nonempty finite family of reals is real. -/
theorem isReal_foldMax {ι : Type*} [Fintype ι] [Nonempty ι] (z : ι → EReal) (h : ∀ k, IsReal (z k)) :
    IsReal ((Finset.univ : Finset ι).fold max ⊥ z) := by
  refine isReal_iff.mpr ⟨?_, ?_⟩
  · refine ne_of_lt ((Finset.fold_max_lt _).mpr ⟨bot_lt_top, fun k _ => ?_⟩)
    obtain ⟨r, hr⟩ := h k
    rw [hr]
    exact EReal.coe_lt_top r
  · obtain ⟨c⟩ := ‹Nonempty ι›
    obtain ⟨r, hr⟩ := h c
    refine ne_of_gt (lt_of_lt_of_le ?_ (le_foldMax z c))
    rw [hr]
    exact EReal.bot_lt_coe r

/-- The exponential of a real is a positive real. -/
theorem IsReal.exp_isPosReal {a : EReal} (ha : IsReal a) : IsPosReal (Ideal.exp a) := by
  obtain ⟨r, rfl⟩ := ha
  exact ⟨Real.exp r, Real.exp_pos r, rfl⟩

/-- The logarithm of a positive real is real. -/
theorem IsPosReal.log_isReal {a : EReal} (ha : IsPosReal a) : IsReal (Ideal.log a) := by
  obtain ⟨r, hr, rfl⟩ := ha
  refine ⟨Real.log r, ?_⟩
  rw [Ideal.log_coe, if_neg (not_le.mpr hr)]

/-- Among reals, subtracting a sum is subtracting its terms one after the other (in either order). -/
theorem IsReal.sub_add {a l m : EReal} (ha : IsReal a) (hl : IsReal l) (hm : IsReal m) :
    a - (l + m) = (a - m) - l := by
  obtain ⟨r, rfl⟩ := ha
  obtain ⟨s, rfl⟩ := hl
  obtain ⟨t, rfl⟩ := hm
  rw [← EReal.coe_add, ← EReal.coe_sub, ← EReal.coe_sub, ← EReal.coe_sub]
  exact congrArg _ (by ring)

/-- The shifted exponential sum of a nonempty finite family of reals is a positive real. -/
theorem isPosReal_expSum {ι : Type*} [Fintype ι] [Nonempty ι] (z : ι → EReal) (h : ∀ k, IsReal (z k)) :
    IsPosReal (∑ k, Ideal.exp (z k - (Finset.univ : Finset ι).fold max ⊥ z)) :=
  isPosReal_sum Finset.univ Finset.univ_nonempty _ fun k _ => ((h k).sub (isReal_foldMax z h)).exp_isPosReal

/-- The log-softmax rearrangement among reals: subtracting "log-sum-exp plus the largest entry" from an entry is
    subtracting the largest entry and then the log-sum-exp. -/
theorem sub_logSumExp_add_top {ι : Type*} [Fintype ι] [Nonempty ι] (z : ι → EReal) (h : ∀ k, IsReal (z k)) (c : ι) :
    z c - (Ideal.log (∑ k, Ideal.exp (z k - (Finset.univ : Finset ι).fold max ⊥ z))
            + (Finset.univ : Finset ι).fold max ⊥ z)
      = (z c - (Finset.univ : Finset ι).fold max ⊥ z)
          - Ideal.log (∑ k, Ideal.exp (z k - (Finset.univ : Finset ι).fold max ⊥ z)) :=
  (h c).sub_add (isPosReal_expSum z h).log_isReal (isReal_foldMax z h)

end Idealize.ShloMosaic.RealEntries

end
-- ==== Proof.Arrange.lean ====
/-
  The output layer of the two-layer graph convolution is real whenever the six argument arrays are, and among reals
  the arrangement "subtract (log-sum-exp plus the row's largest entry)" is the row-wise log-softmax.

  Every entry of `s1 = x·W1`, `h = max (adj·s1 + b1, 0)`, `s2 = h·W2` and `o = adj·s2 + b2` is a finite sum of
  products of reals, plus a real, or the larger of a real and zero: a real. For a row of reals with largest entry `m`
  and `S = Σ_k exp (o (p, k) − m)`, `o (p, c) − (log S + m) = (o (p, c) − m) − log S`, the value of the specification.
-/
import proofs.«131716_g83657372991743_cont_sun_c4_273_6_alg».proof.Proof.Spec
import proofs.«131716_g83657372991743_cont_sun_c4_273_6_alg».proof.Proof.LibRealEntries

noncomputable section

namespace Cert.Bridge

open Idealize.ShloMosaic Idealize.ShloMosaic.ValueIdx Idealize.ShloMosaic.LogSoftmaxRow
open Idealize.ShloMosaic.RealEntries Cert.Spec
open scoped BigOperators

/-- Among reals, subtracting "log-sum-exp plus the row's largest entry" from an entry of an `[a, b]` array is the
    row-wise log-softmax at that entry. -/
theorem logSoftmax_arrange {a b : ℕ} [Nonempty (Fin b)] (z : FVec Ideal ⟨2, ![a, b]⟩ .f32) (hz : ∀ i, IsReal (z i))
    (i : (⟨2, ![a, b]⟩ : Shape).Idx) :
    z i - (Ideal.log (∑ k : Fin b, Ideal.exp (z (ix2 (i 0) k) - rowTop z (i 0))) + rowTop z (i 0))
      = (z i - rowTop z (i 0)) - Ideal.log (∑ k : Fin b, Ideal.exp (z (ix2 (i 0) k) - rowTop z (i 0))) := by
  have key := sub_logSumExp_add_top (fun k : Fin b => z (ix2 (i 0) k)) (fun k => hz _) (i 1)
  have ei : z (ix2 (i 0) (i 1)) = z i := congrArg z (eq_ix2 i).symm
  rw [← ei]
  exact key

variable (x : Mat 10000 128) (adj : Mat 10000 10000) (W1 : Mat 128 64) (b1 : Row 64) (W2 : Mat 64 64) (b2 : Row 64)

/-- Every entry of the first support is real. -/
theorem s1_isReal (hx : ∀ i, IsReal (x i)) (hW1 : ∀ i, IsReal (W1 i)) (i : (⟨2, ![10000, 64]⟩ : Shape).Idx) :
    IsReal (s1 x W1 i) :=
  isReal_sum_univ _ fun _ => (hx _).mul (hW1 _)

/-- Every entry of the hidden layer is real. -/
theorem h_isReal (hx : ∀ i, IsReal (x i)) (hadj : ∀ i, IsReal (adj i)) (hW1 : ∀ i, IsReal (W1 i))
    (hb1 : ∀ i, IsReal (b1 i)) (i : (⟨2, ![10000, 64]⟩ : Shape).Idx) : IsReal (h x adj W1 b1 i) :=
  ((isReal_sum_univ _ fun _ => (hadj _).mul (s1_isReal x W1 hx hW1 _)).add (hb1 _)).max isReal_zero

/-- Every entry of the second support is real. -/
theorem s2_isReal (hx : ∀ i, IsReal (x i)) (hadj : ∀ i, IsReal (adj i)) (hW1 : ∀ i, IsReal (W1 i))
    (hb1 : ∀ i, IsReal (b1 i)) (hW2 : ∀ i, IsReal (W2 i)) (i : (⟨2, ![10000, 64]⟩ : Shape).Idx) :
    IsReal (s2 x adj W1 b1 W2 i) :=
  isReal_sum_univ _ fun _ => (h_isReal x adj W1 b1 hx hadj hW1 hb1 _).mul (hW2 _)

/-- Every entry of the output layer is real. -/
theorem o_isReal (hx : ∀ i, IsReal (x i)) (hadj : ∀ i, IsReal (adj i)) (hW1 : ∀ i, IsReal (W1 i))
    (hb1 : ∀ i, IsReal (b1 i)) (hW2 : ∀ i, IsReal (W2 i)) (hb2 : ∀ i, IsReal (b2 i))
    (i : (⟨2, ![10000, 64]⟩ : Shape).Idx) : IsReal (o x adj W1 b1 W2 b2 i) :=
  (isReal_sum_univ _ fun _ => (hadj _).mul (s2_isReal x adj W1 b1 W2 hx hadj hW1 hb1 hW2 _)).add (hb2 _)

/-- With real arguments, the output layer less "log-sum-exp plus the row's largest entry" is the specification. -/
theorem arrange (hx : ∀ i, IsReal (x i)) (hadj : ∀ i, IsReal (adj i)) (hW1 : ∀ i, IsReal (W1 i))
    (hb1 : ∀ i, IsReal (b1 i)) (hW2 : ∀ i, IsReal (W2 i)) (hb2 : ∀ i, IsReal (b2 i))
    (i : (⟨2, ![10000, 64]⟩ : Shape).Idx) :
    o x adj W1 b1 W2 b2 i
        - (Ideal.log (∑ k : Fin 64, Ideal.exp (o x adj W1 b1 W2 b2 (ix2 (i 0) k) - rowTop (o x adj W1 b1 W2 b2) (i 0)))
            + rowTop (o x adj W1 b1 W2 b2) (i 0))
      = G x adj W1 b1 W2 b2 i :=
  logSoftmax_arrange (o x adj W1 b1 W2 b2) (o_isReal x adj W1 b1 W2 b2 hx hadj hW1 hb1 hW2 hb2) i

end Cert.Bridge

end
-- ==== Proof.FiniteInputs.lean ====
/-
  From the precondition "every entry of the six argument arrays has absolute value below `+∞`" to "every entry is a
  real number".

  The precondition is a conjunction of six tests, one per array: compare `|x|` with `+∞` entry by entry and reduce by
  `and` from 1 over all axes. A reduction by `and` that comes out 1 met only 1s, so every entry `a` has
  `max a (−a) < ⊤`: `a` is neither `⊤` nor `⊥`, a real.
-/
import proofs.«131716_g83657372991743_cont_sun_c4_273_6_alg».proof.Pre_finite_inputs
import proofs.«131716_g83657372991743_cont_sun_c4_273_6_alg».proof.Proof.LibRealEntries
import Idealize.ShloMosaic.Lib.ReduceAll
import Idealize.ShloMosaic.Lib.ValueIdx
import Idealize.ShloMosaic.PureOps.Ideal.Laws

noncomputable section

namespace Cert.Bridge

open Idealize.ShloMosaic Idealize.ShloMosaic.ValueIdx Idealize.ShloMosaic.RealEntries
open Cert.Pre_finite_inputs

/-- The binary32 word of `+∞` denotes `⊤`. -/
theorem ofBits_pos_inf : Ideal.ofBits .f32 0x7F800000#32 = (⊤ : EReal) := by
  simp [Ideal.ofBits, Ideal.ieee]

/-- An extended real whose absolute value is below `+∞` is real. -/
theorem isReal_of_abs_lt_inf (a : EReal)
    (h : FloatOps.cmpf (F := Ideal) (φ := .f32) .olt (FloatOps.hostAbsf (F := Ideal) (φ := .f32) a) (FloatOps.ofBits (F := Ideal) .f32 0x7F800000#32) = 1#1) :
    IsReal a := by
  have h' : Ideal.cmp .olt (max a (-a)) (Ideal.ofBits .f32 0x7F800000#32) = 1#1 := h
  rw [ofBits_pos_inf] at h'
  have h'' : BitVec.ofBool (decide (max a (-a) < ⊤)) = 1#1 := h'
  have hlt : max a (-a) < ⊤ := by
    by_contra hn
    rw [decide_eq_false hn] at h''
    exact absurd h'' (by decide)
  rw [max_lt_iff] at hlt
  refine isReal_iff.mpr ⟨ne_of_lt hlt.1, fun hb => ?_⟩
  rw [hb] at hlt
  exact absurd hlt.2 (by simp)

instance : Subsingleton S_.Idx := ⟨fun a b => funext fun d => d.elim0⟩

/-- An array whose "all entries have absolute value below `+∞`" test is 1 has only real entries. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : IsReal (x i) :=
  isReal_of_abs_lt_inf (x i) (Host.reduce_andi_all _ _ hr hu ix0 e i)

variable [Cert.Pre_finite_inputs.Facts]

/-- If the finiteness test of the six argument arrays is 1, every entry of each of them is real. -/
theorem real_of_pre (x0 : FVec Ideal S10000x128 .f32) (x1 : FVec Ideal S10000x10000 .f32) (x2 : FVec Ideal S128x64 .f32)
    (x3 : FVec Ideal S64 .f32) (x4 : FVec Ideal S64x64 .f32) (x5 : FVec Ideal S64 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have h0 := congrFun h ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h00, h1⟩ := IntOp.andi_eq_one.1 h01
  exact ⟨isReal_of_all x0 _ _ _ h00, isReal_of_all x1 _ _ _ h1, isReal_of_all x2 _ _ _ h2, isReal_of_all x3 _ _ _ h3,
    isReal_of_all x4 _ _ _ h4, isReal_of_all x5 _ _ _ h5⟩

end Cert.Bridge

end
-- ==== Proof.ArrangeOfPre.lean ====
/-
  The arrangement under the precondition: if every entry of the six argument arrays has absolute value below `+∞`,
  the output layer less "log-sum-exp plus the row's largest entry" is the row-wise log-softmax of the specification.
-/
import proofs.«131716_g83657372991743_cont_sun_c4_273_6_alg».proof.Proof.Arrange
import proofs.«131716_g83657372991743_cont_sun_c4_273_6_alg».proof.Proof.FiniteInputs

noncomputable section

namespace Cert.Bridge

open Idealize.ShloMosaic Idealize.ShloMosaic.ValueIdx Idealize.ShloMosaic.LogSoftmaxRow
open Idealize.ShloMosaic.RealEntries Cert.Spec
open scoped BigOperators

variable [Cert.Pre_finite_inputs.Facts]

/-- Under the finiteness test, every entry of the output layer is real. -/
theorem o_isReal_of_pre (x : Mat 10000 128) (adj : Mat 10000 10000) (W1 : Mat 128 64) (b1 : Row 64) (W2 : Mat 64 64)
    (b2 : Row 64) (h : Cert.Pre_finite_inputs.fn (F := Ideal) x adj W1 b1 W2 b2 = fun _ => 1#1)
    (i : (⟨2, ![10000, 64]⟩ : Shape).Idx) : IsReal (o x adj W1 b1 W2 b2 i) := by
  obtain ⟨hx, hadj, hW1, hb1, hW2, hb2⟩ := real_of_pre x adj W1 b1 W2 b2 h
  exact o_isReal x adj W1 b1 W2 b2 hx hadj hW1 hb1 hW2 hb2 i

/-- Under the finiteness test, the output layer less "log-sum-exp plus the row's largest entry" is the specification. -/
theorem arrange_of_pre (x : Mat 10000 128) (adj : Mat 10000 10000) (W1 : Mat 128 64) (b1 : Row 64) (W2 : Mat 64 64)
    (b2 : Row 64) (h : Cert.Pre_finite_inputs.fn (F := Ideal) x adj W1 b1 W2 b2 = fun _ => 1#1)
    (i : (⟨2, ![10000, 64]⟩ : Shape).Idx) :
    o x adj W1 b1 W2 b2 i
        - (Ideal.log (∑ k : Fin 64, Ideal.exp (o x adj W1 b1 W2 b2 (ix2 (i 0) k) - rowTop (o x adj W1 b1 W2 b2) (i 0)))
            + rowTop (o x adj W1 b1 W2 b2) (i 0))
      = G x adj W1 b1 W2 b2 i := by
  obtain ⟨hx, hadj, hW1, hb1, hW2, hb2⟩ := real_of_pre x adj W1 b1 W2 b2 h
  exact arrange x adj W1 b1 W2 b2 hx hadj hW1 hb1 hW2 hb2 i

end Cert.Bridge

end
-- ==== Proof.lean ====
/-
  The certificate of a fused two-layer graph convolution with a row-wise log-softmax against its plain reference.

  The kernel sweeps the adjacency matrix twice in row panels of 400. The first sweep computes `s1 = x·W1` once into a
  scratch buffer and, panel by panel, `s2 = max (adj·s1 + b1, 0)·W2` into the rows of a second scratch buffer; the second
  sweep computes `o = adj·s2 + b2` panel by panel and stores `o − (log Σ exp (o − m) + m)`, `m` the row's largest entry.
  The reference computes the same products whole and stores `(o − m) − log Σ exp (o − m)`. On the extended reals every
  change of float format is the identity and every product is the plain sum over the contracted coordinate, so both
  programs compute one `o`; the two last lines agree because every entry of `o` is a real number when every input entry
  is — which is what the precondition says.

  The frames: the body's three runs (first point, rest of the first sweep, second sweep) carry the two scratch buffers
  through the grid under an invariant that names `x·W1` and the rows of `s2` written so far; the same text serves the
  word-level program and the idealized one. The reference's run is read back operation by operation.
-/
import proofs.«131716_g83657372991743_cont_sun_c4_273_6_alg».proof.Defs
import proofs.«131716_g83657372991743_cont_sun_c4_273_6_alg».proof.Proof.Gen.Kernel
import proofs.«131716_g83657372991743_cont_sun_c4_273_6_alg».proof.Proof.Gen.KernelIdeal
import proofs.«131716_g83657372991743_cont_sun_c4_273_6_alg».proof.Proof.Gen.ReferenceIdeal
import proofs.«131716_g83657372991743_cont_sun_c4_273_6_alg».proof.Proof.Gen.Pre_finite_inputs
import proofs.«131716_g83657372991743_cont_sun_c4_273_6_alg».proof.Proof.KernelBody.Frame
import proofs.«131716_g83657372991743_cont_sun_c4_273_6_alg».proof.Proof.KernelIdealBody.Frame
import proofs.«131716_g83657372991743_cont_sun_c4_273_6_alg».proof.Proof.KValue
import proofs.«131716_g83657372991743_cont_sun_c4_273_6_alg».proof.Proof.RefRun
import proofs.«131716_g83657372991743_cont_sun_c4_273_6_alg».proof.Proof.RefValue
import proofs.«131716_g83657372991743_cont_sun_c4_273_6_alg».proof.Proof.ArrangeOfPre
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Body.frame m ρ

/-- So does the idealized one. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.RefSide.run (F := Ideal) m ρ)

/-- The idealization rewrote nothing. -/
theorem preserves : Cert.preserves_Kernel_KernelIdeal := trivial

/-- Both programs end at the row-wise log-softmax of one output layer: the kernel's array holds it in the arrangement
    `o − (log Σ exp (o − m) + m)`, the reference's in `(o − m) − log Σ exp (o − m)`, and these agree where every entry of
    `o` is real. -/
theorem algebraic : Cert.algebraic_KernelIdeal_ReferenceIdeal := by
  intro m ρ m' ρ' hpre hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.RefSide.run (F := Ideal) m' ρ')
  obtain ⟨e0, e1, e2, e3, e4, e5⟩ := hagree c
  rw [e0, e1, e2, e3, e4, e5, Cert.RefSide.refTerm_eq_G]
  funext i
  exact (Cert.Bridge.arrange_of_pre _ _ _ _ _ _ (hpre c) i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
